-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x16x48x48 : Shape := ⟨4, ![64, 16, 48, 48]⟩
abbrev S1936x400x128 : Shape := ⟨3, ![1936, 400, 128]⟩
abbrev S128 : Shape := ⟨1, ![128]⟩
abbrev S_ : Shape := ⟨0, ![]⟩

class Facts : Prop where
  bcast_S_S64x16x48x48 : S_.BroadcastsInDim S64x16x48x48 (![] : Fin 0 → Fin S64x16x48x48.rank)
  reducesTo_S64x16x48x48_S_d0_1_2_3 : S64x16x48x48.ReducesTo [0, 1, 2, 3] S_
  h_S_ : 0 < S_.numel
  bcast_S_S1936x400x128 : S_.BroadcastsInDim S1936x400x128 (![] : Fin 0 → Fin S1936x400x128.rank)
  reducesTo_S1936x400x128_S_d0_1_2 : S1936x400x128.ReducesTo [0, 1, 2] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S64x16x48x48 .f32) (main_arg1 : FVec F S1936x400x128 .f32) (main_arg2 : FVec F S128 .f32) (main_arg3 : FVec F S128 .f32) : IVec S_ 1 :=
  let main_v0 : FVec F S64x16x48x48 .f32 := Host.absf main_arg0
  let main_cst : FVec F S_ .f32 := constant S_ .f32 0x7F800000#32
  let main_v1 : FVec F S64x16x48x48 .f32 := broadcastInDim S64x16x48x48 ![] bcast_S_S64x16x48x48 main_cst
  let main_v2 : IVec S64x16x48x48 1 := cmpf .olt main_v0 main_v1
  let main_c : IVec S_ 1 := constantI S_ 1 1#1
  let main_v3 : IVec S_ 1 := (fun x v => Host.reduce IntOp.andi x v reducesTo_S64x16x48x48_S_d0_1_2_3 h_S_) main_v2 main_c
  let main_v4 : FVec F S1936x400x128 .f32 := Host.absf main_arg1
  let main_cst_0 : FVec F S_ .f32 := constant S_ .f32 0x7F800000#32
  let main_v5 : FVec F S1936x400x128 .f32 := broadcastInDim S1936x400x128 ![] bcast_S_S1936x400x128 main_cst_0
  let main_v6 : IVec S1936x400x128 1 := cmpf .olt main_v4 main_v5
  let main_c_1 : IVec S_ 1 := constantI S_ 1 1#1
  let main_v7 : IVec S_ 1 := (fun x v => Host.reduce IntOp.andi x v reducesTo_S1936x400x128_S_d0_1_2 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S64x16x48x48 : Shape := ⟨4, ![64, 16, 48, 48]⟩
abbrev S1936x400x128 : Shape := ⟨3, ![1936, 400, 128]⟩
abbrev S128 : Shape := ⟨1, ![128]⟩
abbrev S_ : Shape := ⟨0, ![]⟩
abbrev S64 : Shape := ⟨1, ![64]⟩
abbrev S64x1x1x1 : Shape := ⟨4, ![64, 1, 1, 1]⟩
abbrev S44 : Shape := ⟨1, ![44]⟩
abbrev S44x1 : Shape := ⟨2, ![44, 1]⟩
abbrev S5 : Shape := ⟨1, ![5]⟩
abbrev S1x5 : Shape := ⟨2, ![1, 5]⟩
abbrev S44x5 : Shape := ⟨2, ![44, 5]⟩
abbrev S44x1x5x1 : Shape := ⟨4, ![44, 1, 5, 1]⟩
abbrev S1x44x1x5 : Shape := ⟨4, ![1, 44, 1, 5]⟩
abbrev S44x44x5x5 : Shape := ⟨4, ![44, 44, 5, 5]⟩
abbrev S44x44x5x5x1 : Shape := ⟨5, ![44, 44, 5, 5, 1]⟩
abbrev S44x44x5x5x2 : Shape := ⟨5, ![44, 44, 5, 5, 2]⟩
abbrev S64x16x44x44x5x5 : Shape := ⟨6, ![64, 16, 44, 44, 5, 5]⟩
abbrev S44x44x64x16x5x5 : Shape := ⟨6, ![44, 44, 64, 16, 5, 5]⟩
abbrev S1936x64x400 : Shape := ⟨3, ![1936, 64, 400]⟩
abbrev S1936x64x128 : Shape := ⟨3, ![1936, 64, 128]⟩
abbrev S44x64x400 : Shape := ⟨3, ![44, 64, 400]⟩
abbrev S44x400x128 : Shape := ⟨3, ![44, 400, 128]⟩
abbrev S44x64x128 : Shape := ⟨3, ![44, 64, 128]⟩
abbrev S44x44x64x128 : Shape := ⟨4, ![44, 44, 64, 128]⟩
abbrev S64x128x44x44 : Shape := ⟨4, ![64, 128, 44, 44]⟩
abbrev S1x128x1x1 : Shape := ⟨4, ![1, 128, 1, 1]⟩

abbrev nBuf : Space → Nat
  | .hbm => 93
  | .vmem => 6
  | .smem => 0
  | _ => 0

abbrev bufTy : (tb : Table) → Fin (tcTables nBuf tb) → BufTy
  | .hbm, ⟨0, _⟩ => ⟨S64x16x48x48, .f32⟩
  | .hbm, ⟨1, _⟩ => ⟨S1936x400x128, .f32⟩
  | .hbm, ⟨2, _⟩ => ⟨S128, .f32⟩
  | .hbm, ⟨3, _⟩ => ⟨S128, .f32⟩
  | .hbm, ⟨4, _⟩ => ⟨S64x16x48x48, .f32⟩
  | .hbm, ⟨5, _⟩ => ⟨S_, .f32⟩
  | .hbm, ⟨6, _⟩ => ⟨S64, .f32⟩
  | .hbm, ⟨7, _⟩ => ⟨S64x1x1x1, .f32⟩
  | .hbm, ⟨8, _⟩ => ⟨S64x1x1x1, .f32⟩
  | .hbm, ⟨9, _⟩ => ⟨S_, .f32⟩
  | .hbm, ⟨10, _⟩ => ⟨S64x1x1x1, .f32⟩
  | .hbm, ⟨11, _⟩ => ⟨S64x1x1x1, .f32⟩
  | .hbm, ⟨12, _⟩ => ⟨S64x16x48x48, .f32⟩
  | .hbm, ⟨13, _⟩ => ⟨S64x16x48x48, .f32⟩
  | .hbm, ⟨14, _⟩ => ⟨S44, .i32⟩
  | .hbm, ⟨15, _⟩ => ⟨S44x1, .i32⟩
  | .hbm, ⟨16, _⟩ => ⟨S_, .i32⟩
  | .hbm, ⟨17, _⟩ => ⟨S44x1, .i32⟩
  | .hbm, ⟨18, _⟩ => ⟨S44x1, .i32⟩
  | .hbm, ⟨19, _⟩ => ⟨S5, .i32⟩
  | .hbm, ⟨20, _⟩ => ⟨S1x5, .i32⟩
  | .hbm, ⟨21, _⟩ => ⟨S44x5, .i32⟩
  | .hbm, ⟨22, _⟩ => ⟨S44x5, .i32⟩
  | .hbm, ⟨23, _⟩ => ⟨S44x5, .i32⟩
  | .hbm, ⟨24, _⟩ => ⟨S44, .i32⟩
  | .hbm, ⟨25, _⟩ => ⟨S44x1, .i32⟩
  | .hbm, ⟨26, _⟩ => ⟨S_, .i32⟩
  | .hbm, ⟨27, _⟩ => ⟨S44x1, .i32⟩
  | .hbm, ⟨28, _⟩ => ⟨S44x1, .i32⟩
  | .hbm, ⟨29, _⟩ => ⟨S5, .i32⟩
  | .hbm, ⟨30, _⟩ => ⟨S1x5, .i32⟩
  | .hbm, ⟨31, _⟩ => ⟨S44x5, .i32⟩
  | .hbm, ⟨32, _⟩ => ⟨S44x5, .i32⟩
  | .hbm, ⟨33, _⟩ => ⟨S44x5, .i32⟩
  | .hbm, ⟨34, _⟩ => ⟨S44x1x5x1, .i32⟩
  | .hbm, ⟨35, _⟩ => ⟨S1x44x1x5, .i32⟩
  | .hbm, ⟨36, _⟩ => ⟨S_, .i32⟩
  | .hbm, ⟨37, _⟩ => ⟨S44x1x5x1, .i32⟩
  | .hbm, ⟨38, _⟩ => ⟨S44x1x5x1, .i1⟩
  | .hbm, ⟨39, _⟩ => ⟨S_, .i32⟩
  | .hbm, ⟨40, _⟩ => ⟨S44x1x5x1, .i32⟩
  | .hbm, ⟨41, _⟩ => ⟨S44x1x5x1, .i32⟩
  | .hbm, ⟨42, _⟩ => ⟨S44x1x5x1, .i32⟩
  | .hbm, ⟨43, _⟩ => ⟨S_, .i32⟩
  | .hbm, ⟨44, _⟩ => ⟨S1x44x1x5, .i32⟩
  | .hbm, ⟨45, _⟩ => ⟨S1x44x1x5, .i1⟩
  | .hbm, ⟨46, _⟩ => ⟨S_, .i32⟩
  | .hbm, ⟨47, _⟩ => ⟨S1x44x1x5, .i32⟩
  | .hbm, ⟨48, _⟩ => ⟨S1x44x1x5, .i32⟩
  | .hbm, ⟨49, _⟩ => ⟨S1x44x1x5, .i32⟩
  | .hbm, ⟨50, _⟩ => ⟨S44x44x5x5, .i32⟩
  | .hbm, ⟨51, _⟩ => ⟨S44x44x5x5, .i32⟩
  | .hbm, ⟨52, _⟩ => ⟨S44x44x5x5x1, .i32⟩
  | .hbm, ⟨53, _⟩ => ⟨S44x44x5x5x1, .i32⟩
  | .hbm, ⟨54, _⟩ => ⟨S44x44x5x5x2, .i32⟩
  | .hbm, ⟨55, _⟩ => ⟨S64x16x44x44x5x5, .f32⟩
  | .hbm, ⟨56, _⟩ => ⟨S44x44x64x16x5x5, .f32⟩
  | .hbm, ⟨57, _⟩ => ⟨S1936x64x400, .f32⟩
  | .hbm, ⟨58, _⟩ => ⟨S1936x64x128, .f32⟩
  | .hbm, ⟨59, _⟩ => ⟨S44x44x64x128, .f32⟩
  | .hbm, ⟨60, _⟩ => ⟨S64x128x44x44, .f32⟩
  | .hbm, ⟨61, _⟩ => ⟨S_, .f32⟩
  | .hbm, ⟨62, _⟩ => ⟨S128, .f32⟩
  | .hbm, ⟨63, _⟩ => ⟨S1x128x1x1, .f32⟩
  | .hbm, ⟨64, _⟩ => ⟨S_, .f32⟩
  | .hbm, ⟨65, _⟩ => ⟨S1x128x1x1, .f32⟩
  | .hbm, ⟨66, _⟩ => ⟨S1x128x1x1, .f32⟩
  | .hbm, ⟨67, _⟩ => ⟨S64x128x44x44, .f32⟩
  | .hbm, ⟨68, _⟩ => ⟨S_, .f32⟩
  | .hbm, ⟨69, _⟩ => ⟨S128, .f32⟩
  | .hbm, ⟨70, _⟩ => ⟨S1x128x1x1, .f32⟩
  | .hbm, ⟨71, _⟩ => ⟨S_, .f32⟩
  | .hbm, ⟨72, _⟩ => ⟨S1x128x1x1, .f32⟩
  | .hbm, ⟨73, _⟩ => ⟨S1x128x1x1, .f32⟩
  | .hbm, ⟨74, _⟩ => ⟨S1x128x1x1, .f32⟩
  | .hbm, ⟨75, _⟩ => ⟨S1x128x1x1, .f32⟩
  | .hbm, ⟨76, _⟩ => ⟨S64x128x44x44, .f32⟩
  | .hbm, ⟨77, _⟩ => ⟨S64x128x44x44, .f32⟩
  | .hbm, ⟨78, _⟩ => ⟨S_, .f32⟩
  | .hbm, ⟨79, _⟩ => ⟨S1x128x1x1, .f32⟩
  | .hbm, ⟨80, _⟩ => ⟨S1x128x1x1, .f32⟩
  | .hbm, ⟨81, _⟩ => ⟨S1x128x1x1, .f32⟩
  | .hbm, ⟨82, _⟩ => ⟨S64x128x44x44, .f32⟩
  | .hbm, ⟨83, _⟩ => ⟨S64x128x44x44, .f32⟩
  | .hbm, ⟨84, _⟩ => ⟨S1x128x1x1, .f32⟩
  | .hbm, ⟨85, _⟩ => ⟨S64x128x44x44, .f32⟩
  | .hbm, ⟨86, _⟩ => ⟨S64x128x44x44, .f32⟩
  | .hbm, ⟨87, _⟩ => ⟨S1x128x1x1, .f32⟩
  | .hbm, ⟨88, _⟩ => ⟨S64x128x44x44, .f32⟩
  | .hbm, ⟨89, _⟩ => ⟨S64x128x44x44, .f32⟩
  | .hbm, ⟨90, _⟩ => ⟨S_, .f32⟩
  | .hbm, ⟨91, _⟩ => ⟨S64x128x44x44, .f32⟩
  | .hbm, ⟨92, _⟩ => ⟨S64x128x44x44, .f32⟩
  | .local _ .vmem, ⟨0, _⟩ => ⟨S44x64x400, .f32⟩
  | .local _ .vmem, ⟨1, _⟩ => ⟨S44x64x400, .f32⟩
  | .local _ .vmem, ⟨2, _⟩ => ⟨S44x400x128, .f32⟩
  | .local _ .vmem, ⟨3, _⟩ => ⟨S44x400x128, .f32⟩
  | .local _ .vmem, ⟨4, _⟩ => ⟨S44x64x128, .f32⟩
  | .local _ .vmem, ⟨5, _⟩ => ⟨S44x64x128, .f32⟩
  | _, _ => ⟨S64x16x48x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_2 : Ref sig .tc := ⟨.hbm, 36, rfl⟩
abbrev main_v28 : Ref sig .tc := ⟨.hbm, 37, rfl⟩
abbrev main_v29 : Ref sig .tc := ⟨.hbm, 38, rfl⟩
abbrev main_c_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_4 : Ref sig .tc := ⟨.hbm, 43, rfl⟩
abbrev main_v33 : Ref sig .tc := ⟨.hbm, 44, rfl⟩
abbrev main_v34 : Ref sig .tc := ⟨.hbm, 45, rfl⟩
abbrev main_c_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_6 : Ref sig .tc := ⟨.hbm, 61, rfl⟩
abbrev main_v49 : Ref sig .tc := ⟨.hbm, 62, rfl⟩
abbrev main_v50 : Ref sig .tc := ⟨.hbm, 63, rfl⟩
abbrev main_cst_7 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_8 : Ref sig .tc := ⟨.hbm, 68, rfl⟩
abbrev main_v54 : Ref sig .tc := ⟨.hbm, 69, rfl⟩
abbrev main_v55 : Ref sig .tc := ⟨.hbm, 70, rfl⟩
abbrev main_cst_9 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_10 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_call0_cst : Ref sig .tc := ⟨.hbm, 90, rfl⟩
abbrev main_call0_v0 : Ref sig .tc := ⟨.hbm, 91, rfl⟩
abbrev main_v73 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![44], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S44x64x400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S44x400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S44x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S64x16x48x48_S64_d1_2_3 : S64x16x48x48.ReducesTo [1, 2, 3] S64
  h_S_ : 0 < S_.numel
  bcast_S64_S64x1x1x1_0 : S64.BroadcastsInDim S64x1x1x1 (![0] : Fin 1 → Fin S64x1x1x1.rank)
  bcast_S_S64x1x1x1 : S_.BroadcastsInDim S64x1x1x1 (![] : Fin 0 → Fin S64x1x1x1.rank)
  bcast_S64x1x1x1_S64x16x48x48_0_1_2_3 : S64x1x1x1.BroadcastsInDim S64x16x48x48 (![0, 1, 2, 3] : Fin 4 → Fin S64x16x48x48.rank)
  bcast_S44_S44x1_0 : S44.BroadcastsInDim S44x1 (![0] : Fin 1 → Fin S44x1.rank)
  bcast_S_S44x1 : S_.BroadcastsInDim S44x1 (![] : Fin 0 → Fin S44x1.rank)
  bcast_S5_S1x5_1 : S5.BroadcastsInDim S1x5 (![1] : Fin 1 → Fin S1x5.rank)
  bcast_S44x1_S44x5_0_1 : S44x1.BroadcastsInDim S44x5 (![0, 1] : Fin 2 → Fin S44x5.rank)
  bcast_S1x5_S44x5_0_1 : S1x5.BroadcastsInDim S44x5 (![0, 1] : Fin 2 → Fin S44x5.rank)
  bcast_S44x5_S44x1x5x1_0_2 : S44x5.BroadcastsInDim S44x1x5x1 (![0, 2] : Fin 2 → Fin S44x1x5x1.rank)
  bcast_S44x5_S1x44x1x5_1_3 : S44x5.BroadcastsInDim S1x44x1x5 (![1, 3] : Fin 2 → Fin S1x44x1x5.rank)
  bcast_S_S44x1x5x1 : S_.BroadcastsInDim S44x1x5x1 (![] : Fin 0 → Fin S44x1x5x1.rank)
  bcast_S_S1x44x1x5 : S_.BroadcastsInDim S1x44x1x5 (![] : Fin 0 → Fin S1x44x1x5.rank)
  bcast_S44x1x5x1_S44x44x5x5_0_1_2_3 : S44x1x5x1.BroadcastsInDim S44x44x5x5 (![0, 1, 2, 3] : Fin 4 → Fin S44x44x5x5.rank)
  bcast_S1x44x1x5_S44x44x5x5_0_1_2_3 : S1x44x1x5.BroadcastsInDim S44x44x5x5 (![0, 1, 2, 3] : Fin 4 → Fin S44x44x5x5.rank)
  bcast_S44x44x5x5_S44x44x5x5x1_0_1_2_3 : S44x44x5x5.BroadcastsInDim S44x44x5x5x1 (![0, 1, 2, 3] : Fin 4 → Fin S44x44x5x5x1.rank)
  concatenates_S44x44x5x5x1_S44x44x5x5x1_S44x44x5x5x2_d4 : Shape.Concatenates [S44x44x5x5x1, S44x44x5x5x1] S44x44x5x5x2 4
  transposes_S64x16x44x44x5x5_S44x44x64x16x5x5_2_3_0_1_4_5 : S64x16x44x44x5x5.Transposes [2, 3, 0, 1, 4, 5] S44x44x64x16x5x5
  shapeCasts_S44x44x64x16x5x5_S1936x64x400 : S44x44x64x16x5x5.ShapeCasts S1936x64x400
  inb_S44x64x400_S44x64x400_0_0_0 : ∀ a, (![0, 0, 0] : Fin 3 → Nat) a + S44x64x400.size a ≤ S44x64x400.size a
  h_S44x64x400 : 0 < S44x64x400.numel
  shapeCasts_S44x64x400_S44x64x400 : S44x64x400.ShapeCasts S44x64x400
  inb_S44x400x128_S44x400x128_0_0_0 : ∀ a, (![0, 0, 0] : Fin 3 → Nat) a + S44x400x128.size a ≤ S44x400x128.size a
  h_S44x400x128 : 0 < S44x400x128.numel
  inb_S44x64x128_S44x64x128_0_0_0 : ∀ a, (![0, 0, 0] : Fin 3 → Nat) a + S44x64x128.size a ≤ S44x64x128.size a
  h_S44x64x128 : 0 < S44x64x128.numel
  shapeCasts_S1936x64x128_S44x44x64x128 : S1936x64x128.ShapeCasts S44x44x64x128
  transposes_S44x44x64x128_S64x128x44x44_2_3_0_1 : S44x44x64x128.Transposes [2, 3, 0, 1] S64x128x44x44
  reducesTo_S64x128x44x44_S128_d0_2_3 : S64x128x44x44.ReducesTo [0, 2, 3] S128
  bcast_S128_S1x128x1x1_1 : S128.BroadcastsInDim S1x128x1x1 (![1] : Fin 1 → Fin S1x128x1x1.rank)
  bcast_S_S1x128x1x1 : S_.BroadcastsInDim S1x128x1x1 (![] : Fin 0 → Fin S1x128x1x1.rank)
  bcast_S1x128x1x1_S64x128x44x44_0_1_2_3 : S1x128x1x1.BroadcastsInDim S64x128x44x44 (![0, 1, 2, 3] : Fin 4 → Fin S64x128x44x44.rank)
  shapeCasts_S128_S1x128x1x1 : S128.ShapeCasts S1x128x1x1
  bcast_S_S64x128x44x44 : S_.BroadcastsInDim S64x128x44x44 (![] : Fin 0 → Fin S64x128x44x44.rank)
  gather_S64x16x48x48_S44x44x5x5x2_S64x16x44x44x5x5_01_23_n_n_23_4_641611_wf : GatherDims.WF S64x16x48x48 S44x44x5x5x2 S64x16x44x44x5x5 [0, 1] [2, 3] [] [2, 3] [] 4 ![64, 16, 1, 1]
  dot_S44x64x400_S44x400x128_S44x64x128_2_1_1_2_0_0_wf : DotDims.WF S44x64x400 S44x400x128 S44x64x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S44x64x400.size a ≤ S1936x64x400.size a
  hwx0_0 : ∀ i : grid0.Coords, EltTy.bits .f32 = 32 ∨ (Rect.block (s := S1936x64x400) S44x64x400.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S44x400x128.size a ≤ S1936x400x128.size a
  hwx0_1 : ∀ i : grid0.Coords, EltTy.bits .f32 = 32 ∨ (Rect.block (s := S1936x400x128) S44x400x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S44x64x128.size a ≤ S1936x64x128.size a
  hwx0_2 : ∀ i : grid0.Coords, EltTy.bits .f32 = 32 ∨ (Rect.block (s := S1936x64x128) S44x64x128.size (cc0_transform_2 i) (hinb0_2 i)).WholeWords (EltTy.packing .f32)

variable [Facts₀]

def gather_S64x16x48x48_S44x44x5x5x2_S64x16x44x44x5x5_01_23_n_n_23_4_641611 : GatherDims S64x16x48x48 S44x44x5x5x2 S64x16x44x44x5x5 where
  offsetDims := [0, 1]
  collapsedSliceDims := [2, 3]
  operandBatchingDims := []
  startIndicesBatchingDims := []
  startIndexMap := [2, 3]
  indexVectorDim := 4
  sliceSizes := ![64, 16, 1, 1]
  wf := gather_S64x16x48x48_S44x44x5x5x2_S64x16x44x44x5x5_01_23_n_n_23_4_641611_wf
def dot_S44x64x400_S44x400x128_S44x64x128_2_1_1_2_0_0 : DotDims S44x64x400 S44x400x128 S44x64x128 where
  lhsContracting := [2]
  rhsContracting := [1]
  lhsNonContracting := [1]
  rhsNonContracting := [2]
  lhsBatch := [0]
  rhsBatch := [0]
  wf := dot_S44x64x400_S44x400x128_S44x64x128_2_1_1_2_0_0_wf

abbrev win0_0 : Pipeline.Window sig grid0 :=
  Pipeline.Window.ofSpec (Memref.whole main_v45) S44x64x400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S44x400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v46) S44x64x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x16x48x48 : Shape := ⟨4, ![64, 16, 48, 48]⟩
abbrev S1936x400x128 : Shape := ⟨3, ![1936, 400, 128]⟩
abbrev S128 : Shape := ⟨1, ![128]⟩
abbrev S_ : Shape := ⟨0, ![]⟩
abbrev S64 : Shape := ⟨1, ![64]⟩
abbrev S64x1x1x1 : Shape := ⟨4, ![64, 1, 1, 1]⟩
abbrev S44 : Shape := ⟨1, ![44]⟩
abbrev S44x1 : Shape := ⟨2, ![44, 1]⟩
abbrev S5 : Shape := ⟨1, ![5]⟩
abbrev S1x5 : Shape := ⟨2, ![1, 5]⟩
abbrev S44x5 : Shape := ⟨2, ![44, 5]⟩
abbrev S44x1x5x1 : Shape := ⟨4, ![44, 1, 5, 1]⟩
abbrev S1x44x1x5 : Shape := ⟨4, ![1, 44, 1, 5]⟩
abbrev S44x44x5x5 : Shape := ⟨4, ![44, 44, 5, 5]⟩
abbrev S44x44x5x5x1 : Shape := ⟨5, ![44, 44, 5, 5, 1]⟩
abbrev S44x44x5x5x2 : Shape := ⟨5, ![44, 44, 5, 5, 2]⟩
abbrev S64x16x44x44x5x5 : Shape := ⟨6, ![64, 16, 44, 44, 5, 5]⟩
abbrev S44x44x64x16x5x5 : Shape := ⟨6, ![44, 44, 64, 16, 5, 5]⟩
abbrev S1936x64x400 : Shape := ⟨3, ![1936, 64, 400]⟩
abbrev S1936x64x128 : Shape := ⟨3, ![1936, 64, 128]⟩
abbrev S44x44x64x128 : Shape := ⟨4, ![44, 44, 64, 128]⟩
abbrev S64x128x44x44 : Shape := ⟨4, ![64, 128, 44, 44]⟩
abbrev S1x128x1x1 : Shape := ⟨4, ![1, 128, 1, 1]⟩

abbrev nBuf : Space → Nat
  | .hbm => 93
  | .vmem => 0
  | .smem => 0
  | _ => 0

abbrev bufTy : (tb : Table) → Fin (tcTables nBuf tb) → BufTy
  | .hbm, ⟨0, _⟩ => ⟨S64x16x48x48, .f32⟩
  | .hbm, ⟨1, _⟩ => ⟨S1936x400x128, .f32⟩
  | .hbm, ⟨2, _⟩ => ⟨S128, .f32⟩
  | .hbm, ⟨3, _⟩ => ⟨S128, .f32⟩
  | .hbm, ⟨4, _⟩ => ⟨S64x16x48x48, .f32⟩
  | .hbm, ⟨5, _⟩ => ⟨S_, .f32⟩
  | .hbm, ⟨6, _⟩ => ⟨S64, .f32⟩
  | .hbm, ⟨7, _⟩ => ⟨S64x1x1x1, .f32⟩
  | .hbm, ⟨8, _⟩ => ⟨S64x1x1x1, .f32⟩
  | .hbm, ⟨9, _⟩ => ⟨S_, .f32⟩
  | .hbm, ⟨10, _⟩ => ⟨S64x1x1x1, .f32⟩
  | .hbm, ⟨11, _⟩ => ⟨S64x1x1x1, .f32⟩
  | .hbm, ⟨12, _⟩ => ⟨S64x16x48x48, .f32⟩
  | .hbm, ⟨13, _⟩ => ⟨S64x16x48x48, .f32⟩
  | .hbm, ⟨14, _⟩ => ⟨S44, .i32⟩
  | .hbm, ⟨15, _⟩ => ⟨S44x1, .i32⟩
  | .hbm, ⟨16, _⟩ => ⟨S_, .i32⟩
  | .hbm, ⟨17, _⟩ => ⟨S44x1, .i32⟩
  | .hbm, ⟨18, _⟩ => ⟨S44x1, .i32⟩
  | .hbm, ⟨19, _⟩ => ⟨S5, .i32⟩
  | .hbm, ⟨20, _⟩ => ⟨S1x5, .i32⟩
  | .hbm, ⟨21, _⟩ => ⟨S44x5, .i32⟩
  | .hbm, ⟨22, _⟩ => ⟨S44x5, .i32⟩
  | .hbm, ⟨23, _⟩ => ⟨S44x5, .i32⟩
  | .hbm, ⟨24, _⟩ => ⟨S44, .i32⟩
  | .hbm, ⟨25, _⟩ => ⟨S44x1, .i32⟩
  | .hbm, ⟨26, _⟩ => ⟨S_, .i32⟩
  | .hbm, ⟨27, _⟩ => ⟨S44x1, .i32⟩
  | .hbm, ⟨28, _⟩ => ⟨S44x1, .i32⟩
  | .hbm, ⟨29, _⟩ => ⟨S5, .i32⟩
  | .hbm, ⟨30, _⟩ => ⟨S1x5, .i32⟩
  | .hbm, ⟨31, _⟩ => ⟨S44x5, .i32⟩
  | .hbm, ⟨32, _⟩ => ⟨S44x5, .i32⟩
  | .hbm, ⟨33, _⟩ => ⟨S44x5, .i32⟩
  | .hbm, ⟨34, _⟩ => ⟨S44x1x5x1, .i32⟩
  | .hbm, ⟨35, _⟩ => ⟨S1x44x1x5, .i32⟩
  | .hbm, ⟨36, _⟩ => ⟨S_, .i32⟩
  | .hbm, ⟨37, _⟩ => ⟨S44x1x5x1, .i32⟩
  | .hbm, ⟨38, _⟩ => ⟨S44x1x5x1, .i1⟩
  | .hbm, ⟨39, _⟩ => ⟨S_, .i32⟩
  | .hbm, ⟨40, _⟩ => ⟨S44x1x5x1, .i32⟩
  | .hbm, ⟨41, _⟩ => ⟨S44x1x5x1, .i32⟩
  | .hbm, ⟨42, _⟩ => ⟨S44x1x5x1, .i32⟩
  | .hbm, ⟨43, _⟩ => ⟨S_, .i32⟩
  | .hbm, ⟨44, _⟩ => ⟨S1x44x1x5, .i32⟩
  | .hbm, ⟨45, _⟩ => ⟨S1x44x1x5, .i1⟩
  | .hbm, ⟨46, _⟩ => ⟨S_, .i32⟩
  | .hbm, ⟨47, _⟩ => ⟨S1x44x1x5, .i32⟩
  | .hbm, ⟨48, _⟩ => ⟨S1x44x1x5, .i32⟩
  | .hbm, ⟨49, _⟩ => ⟨S1x44x1x5, .i32⟩
  | .hbm, ⟨50, _⟩ => ⟨S44x44x5x5, .i32⟩
  | .hbm, ⟨51, _⟩ => ⟨S44x44x5x5, .i32⟩
  | .hbm, ⟨52, _⟩ => ⟨S44x44x5x5x1, .i32⟩
  | .hbm, ⟨53, _⟩ => ⟨S44x44x5x5x1, .i32⟩
  | .hbm, ⟨54, _⟩ => ⟨S44x44x5x5x2, .i32⟩
  | .hbm, ⟨55, _⟩ => ⟨S64x16x44x44x5x5, .f32⟩
  | .hbm, ⟨56, _⟩ => ⟨S44x44x64x16x5x5, .f32⟩
  | .hbm, ⟨57, _⟩ => ⟨S1936x64x400, .f32⟩
  | .hbm, ⟨58, _⟩ => ⟨S1936x64x128, .f32⟩
  | .hbm, ⟨59, _⟩ => ⟨S44x44x64x128, .f32⟩
  | .hbm, ⟨60, _⟩ => ⟨S64x128x44x44, .f32⟩
  | .hbm, ⟨61, _⟩ => ⟨S_, .f32⟩
  | .hbm, ⟨62, _⟩ => ⟨S128, .f32⟩
  | .hbm, ⟨63, _⟩ => ⟨S1x128x1x1, .f32⟩
  | .hbm, ⟨64, _⟩ => ⟨S_, .f32⟩
  | .hbm, ⟨65, _⟩ => ⟨S1x128x1x1, .f32⟩
  | .hbm, ⟨66, _⟩ => ⟨S1x128x1x1, .f32⟩
  | .hbm, ⟨67, _⟩ => ⟨S64x128x44x44, .f32⟩
  | .hbm, ⟨68, _⟩ => ⟨S64x128x44x44, .f32⟩
  | .hbm, ⟨69, _⟩ => ⟨S64x128x44x44, .f32⟩
  | .hbm, ⟨70, _⟩ => ⟨S_, .f32⟩
  | .hbm, ⟨71, _⟩ => ⟨S128, .f32⟩
  | .hbm, ⟨72, _⟩ => ⟨S1x128x1x1, .f32⟩
  | .hbm, ⟨73, _⟩ => ⟨S_, .f32⟩
  | .hbm, ⟨74, _⟩ => ⟨S1x128x1x1, .f32⟩
  | .hbm, ⟨75, _⟩ => ⟨S1x128x1x1, .f32⟩
  | .hbm, ⟨76, _⟩ => ⟨S64x128x44x44, .f32⟩
  | .hbm, ⟨77, _⟩ => ⟨S64x128x44x44, .f32⟩
  | .hbm, ⟨78, _⟩ => ⟨S_, .f32⟩
  | .hbm, ⟨79, _⟩ => ⟨S1x128x1x1, .f32⟩
  | .hbm, ⟨80, _⟩ => ⟨S1x128x1x1, .f32⟩
  | .hbm, ⟨81, _⟩ => ⟨S1x128x1x1, .f32⟩
  | .hbm, ⟨82, _⟩ => ⟨S64x128x44x44, .f32⟩
  | .hbm, ⟨83, _⟩ => ⟨S64x128x44x44, .f32⟩
  | .hbm, ⟨84, _⟩ => ⟨S1x128x1x1, .f32⟩
  | .hbm, ⟨85, _⟩ => ⟨S64x128x44x44, .f32⟩
  | .hbm, ⟨86, _⟩ => ⟨S64x128x44x44, .f32⟩
  | .hbm, ⟨87, _⟩ => ⟨S1x128x1x1, .f32⟩
  | .hbm, ⟨88, _⟩ => ⟨S64x128x44x44, .f32⟩
  | .hbm, ⟨89, _⟩ => ⟨S64x128x44x44, .f32⟩
  | .hbm, ⟨90, _⟩ => ⟨S_, .f32⟩
  | .hbm, ⟨91, _⟩ => ⟨S64x128x44x44, .f32⟩
  | .hbm, ⟨92, _⟩ => ⟨S64x128x44x44, .f32⟩
  | _, _ => ⟨S64x16x48x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_2 : Ref sig .tc := ⟨.hbm, 36, rfl⟩
abbrev main_v28 : Ref sig .tc := ⟨.hbm, 37, rfl⟩
abbrev main_v29 : Ref sig .tc := ⟨.hbm, 38, rfl⟩
abbrev main_c_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_4 : Ref sig .tc := ⟨.hbm, 43, rfl⟩
abbrev main_v33 : Ref sig .tc := ⟨.hbm, 44, rfl⟩
abbrev main_v34 : Ref sig .tc := ⟨.hbm, 45, rfl⟩
abbrev main_c_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_6 : Ref sig .tc := ⟨.hbm, 61, rfl⟩
abbrev main_v49 : Ref sig .tc := ⟨.hbm, 62, rfl⟩
abbrev main_v50 : Ref sig .tc := ⟨.hbm, 63, rfl⟩
abbrev main_cst_7 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_8 : Ref sig .tc := ⟨.hbm, 70, rfl⟩
abbrev main_v56 : Ref sig .tc := ⟨.hbm, 71, rfl⟩
abbrev main_v57 : Ref sig .tc := ⟨.hbm, 72, rfl⟩
abbrev main_cst_9 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_10 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_call0_cst : Ref sig .tc := ⟨.hbm, 90, rfl⟩
abbrev main_call0_v0 : Ref sig .tc := ⟨.hbm, 91, rfl⟩
abbrev main_v73 : Ref sig .tc := ⟨.hbm, 92, rfl⟩

abbrev nD : Nat := 1
abbrev τ : Topo := Topo.v7x

variable {F : FTy → Type} [FloatOps F]

class Facts₀ : Prop where
  reducesTo_S64x16x48x48_S64_d1_2_3 : S64x16x48x48.ReducesTo [1, 2, 3] S64
  h_S_ : 0 < S_.numel
  bcast_S64_S64x1x1x1_0 : S64.BroadcastsInDim S64x1x1x1 (![0] : Fin 1 → Fin S64x1x1x1.rank)
  bcast_S_S64x1x1x1 : S_.BroadcastsInDim S64x1x1x1 (![] : Fin 0 → Fin S64x1x1x1.rank)
  bcast_S64x1x1x1_S64x16x48x48_0_1_2_3 : S64x1x1x1.BroadcastsInDim S64x16x48x48 (![0, 1, 2, 3] : Fin 4 → Fin S64x16x48x48.rank)
  bcast_S44_S44x1_0 : S44.BroadcastsInDim S44x1 (![0] : Fin 1 → Fin S44x1.rank)
  bcast_S_S44x1 : S_.BroadcastsInDim S44x1 (![] : Fin 0 → Fin S44x1.rank)
  bcast_S5_S1x5_1 : S5.BroadcastsInDim S1x5 (![1] : Fin 1 → Fin S1x5.rank)
  bcast_S44x1_S44x5_0_1 : S44x1.BroadcastsInDim S44x5 (![0, 1] : Fin 2 → Fin S44x5.rank)
  bcast_S1x5_S44x5_0_1 : S1x5.BroadcastsInDim S44x5 (![0, 1] : Fin 2 → Fin S44x5.rank)
  bcast_S44x5_S44x1x5x1_0_2 : S44x5.BroadcastsInDim S44x1x5x1 (![0, 2] : Fin 2 → Fin S44x1x5x1.rank)
  bcast_S44x5_S1x44x1x5_1_3 : S44x5.BroadcastsInDim S1x44x1x5 (![1, 3] : Fin 2 → Fin S1x44x1x5.rank)
  bcast_S_S44x1x5x1 : S_.BroadcastsInDim S44x1x5x1 (![] : Fin 0 → Fin S44x1x5x1.rank)
  bcast_S_S1x44x1x5 : S_.BroadcastsInDim S1x44x1x5 (![] : Fin 0 → Fin S1x44x1x5.rank)
  bcast_S44x1x5x1_S44x44x5x5_0_1_2_3 : S44x1x5x1.BroadcastsInDim S44x44x5x5 (![0, 1, 2, 3] : Fin 4 → Fin S44x44x5x5.rank)
  bcast_S1x44x1x5_S44x44x5x5_0_1_2_3 : S1x44x1x5.BroadcastsInDim S44x44x5x5 (![0, 1, 2, 3] : Fin 4 → Fin S44x44x5x5.rank)
  bcast_S44x44x5x5_S44x44x5x5x1_0_1_2_3 : S44x44x5x5.BroadcastsInDim S44x44x5x5x1 (![0, 1, 2, 3] : Fin 4 → Fin S44x44x5x5x1.rank)
  concatenates_S44x44x5x5x1_S44x44x5x5x1_S44x44x5x5x2_d4 : Shape.Concatenates [S44x44x5x5x1, S44x44x5x5x1] S44x44x5x5x2 4
  transposes_S64x16x44x44x5x5_S44x44x64x16x5x5_2_3_0_1_4_5 : S64x16x44x44x5x5.Transposes [2, 3, 0, 1, 4, 5] S44x44x64x16x5x5
  shapeCasts_S44x44x64x16x5x5_S1936x64x400 : S44x44x64x16x5x5.ShapeCasts S1936x64x400
  shapeCasts_S1936x64x128_S44x44x64x128 : S1936x64x128.ShapeCasts S44x44x64x128
  transposes_S44x44x64x128_S64x128x44x44_2_3_0_1 : S44x44x64x128.Transposes [2, 3, 0, 1] S64x128x44x44
  reducesTo_S64x128x44x44_S128_d0_2_3 : S64x128x44x44.ReducesTo [0, 2, 3] S128
  bcast_S128_S1x128x1x1_1 : S128.BroadcastsInDim S1x128x1x1 (![1] : Fin 1 → Fin S1x128x1x1.rank)
  bcast_S_S1x128x1x1 : S_.BroadcastsInDim S1x128x1x1 (![] : Fin 0 → Fin S1x128x1x1.rank)
  bcast_S1x128x1x1_S64x128x44x44_0_1_2_3 : S1x128x1x1.BroadcastsInDim S64x128x44x44 (![0, 1, 2, 3] : Fin 4 → Fin S64x128x44x44.rank)
  shapeCasts_S128_S1x128x1x1 : S128.ShapeCasts S1x128x1x1
  bcast_S_S64x128x44x44 : S_.BroadcastsInDim S64x128x44x44 (![] : Fin 0 → Fin S64x128x44x44.rank)
  gather_S64x16x48x48_S44x44x5x5x2_S64x16x44x44x5x5_01_23_n_n_23_4_641611_wf : GatherDims.WF S64x16x48x48 S44x44x5x5x2 S64x16x44x44x5x5 [0, 1] [2, 3] [] [2, 3] [] 4 ![64, 16, 1, 1]
  dot_S1936x64x400_S1936x400x128_S1936x64x128_2_1_1_2_0_0_wf : DotDims.WF S1936x64x400 S1936x400x128 S1936x64x128 [2] [1] [1] [2] [0] [0]

variable [Facts₀]

def gather_S64x16x48x48_S44x44x5x5x2_S64x16x44x44x5x5_01_23_n_n_23_4_641611 : GatherDims S64x16x48x48 S44x44x5x5x2 S64x16x44x44x5x5 where
  offsetDims := [0, 1]
  collapsedSliceDims := [2, 3]
  operandBatchingDims := []
  startIndicesBatchingDims := []
  startIndexMap := [2, 3]
  indexVectorDim := 4
  sliceSizes := ![64, 16, 1, 1]
  wf := gather_S64x16x48x48_S44x44x5x5x2_S64x16x44x44x5x5_01_23_n_n_23_4_641611_wf
def dot_S1936x64x400_S1936x400x128_S1936x64x128_2_1_1_2_0_0 : DotDims S1936x64x400 S1936x400x128 S1936x64x128 where
  lhsContracting := [2]
  rhsContracting := [1]
  lhsNonContracting := [1]
  rhsNonContracting := [2]
  lhsBatch := [0]
  rhsBatch := [0]
  wf := dot_S1936x64x400_S1936x400x128_S1936x64x128_2_1_1_2_0_0_wf

class Facts : Prop extends Facts₀ where

variable [Facts]
-- ==== Proof.HeadEq.lean ====
import proofs.«122029_j87076166959109_2_alg».proof.Proof.Gen.KernelIdeal.Frame
import proofs.«122029_j87076166959109_2_alg».proof.Proof.Gen.ReferenceIdeal.Read
import Idealize.ShloMosaic.Lib.StableHlo.Run

/-!
  Both programs begin with the same host operations on the activations `x`: divide `x` by its per-sample Euclidean
  norm (plus a small constant), gather the 5 × 5 patches at the 44 × 44 positions, transpose and reshape into the patch
  array of shape [1936, 64, 400]. In one program that array is what the buffer `main_v45` holds when the region is
  entered, that is, after the host operations before the region have run from the launch contents; in the other it is
  the stage function `val_main_v45` of the first argument. The two are the same composition of the same operations
  applied to the same argument, so they are one array.
-/

noncomputable section

namespace Cert.HeadEq

open Idealize.ShloMosaic Idealize.ShloMosaic.TcCoe Idealize.SL.Sem

set_option maxRecDepth 8192 in
set_option maxHeartbeats 4000000 in
/-- the patch array the region finds in `main_v45` is the patch array the other program computes from the same
    activations: reading the buffer after the host operations unfolds, operation by operation, to the composed term
    of the launch contents of `main_arg0`, and that term is the stage functions' composition by definition -/
theorem head_eq (m : (ℓ : Loc Cert.KernelIdeal.nD Cert.KernelIdeal.τ Cert.KernelIdeal.sig) → Buf (Elt Ideal) ℓ) (c : Dev Cert.KernelIdeal.nD) :
    (Cert.KernelIdeal.Gen.V m c Cert.KernelIdeal.main_v45 : Cert.KernelIdeal.S1936x64x400.Idx → EReal)
      = Cert.ReferenceIdeal.Read.val_main_v45 (F := Ideal) (m ((c.tc : Thread Cert.KernelIdeal.nD Cert.KernelIdeal.τ).loc Cert.KernelIdeal.main_arg0)) := by
  show StableHlo.after Cert.KernelIdeal.Gen.hostOps0 (fun b => m (c, b)) (Proc.devRef .tc Cert.KernelIdeal.main_v45) = _
  open Idealize.ShloMosaic.StableHlo in after_results_simp
  rfl

end Cert.HeadEq

end
-- ==== Proof.Tail.lean ====
/-
  The batch normalisation after the per-position product, as functions of the activations.

  Both programs lay the product out as O : [64,128,44,44] (batch, channel, row, column), take per channel c the mean
  mu_c of the 64·44·44 = 123904 entries O[·,c,·,·], a variance v_c, and return
      relu( (O − mu) · rsqrt(v + 1e-5) · gamma + beta ).
  They differ in the variance only: one program takes the mean of the squares minus the square of the mean, the other
  the mean of the squared deviations from the mean. This module names the mean, the first form of the variance and the
  rest of the chain as functions of O (and of a variance array v), and records that the second program's stages are
  these functions of its own O, mean and variance.
-/
import proofs.«122029_j87076166959109_2_alg».proof.Proof.Gen.ReferenceIdeal.Read

noncomputable section

namespace Cert.ReferenceIdeal.Tail

open Cert.ReferenceIdeal Cert.ReferenceIdeal.Gen Cert.ReferenceIdeal.Read Idealize.ShloMosaic Idealize.ShloMosaic.TcCoe

/-- The per-channel sum of an array [64,128,44,44] over batch, row and column, laid out [1,128,1,1], divided by the
    number of entries 123904. -/
def chanMean (A : FVec Ideal S64x128x44x44 .f32) : FVec Ideal S1x128x1x1 .f32 :=
  Host.divf (F := Ideal)
    (broadcastInDim S1x128x1x1 ![1] bcast_S128_S1x128x1x1_1
      (Host.reduceAdd (F := Ideal) A (constant (F := Ideal) S_ .f32 0x00000000#32) reducesTo_S64x128x44x44_S128_d0_2_3 h_S_))
    (broadcastInDim S1x128x1x1 ![] bcast_S_S1x128x1x1 (constant (F := Ideal) S_ .f32 0x47F20000#32))

/-- The variance as the mean of the squares minus the square of the mean. -/
def varOfSquares (O : FVec Ideal S64x128x44x44 .f32) : FVec Ideal S1x128x1x1 .f32 :=
  subf (chanMean (mulf O O)) (mulf (chanMean O) (chanMean O))

/-- The variance as the mean of the squared deviations from the mean. -/
def varOfDeviations (O : FVec Ideal S64x128x44x44 .f32) : FVec Ideal S1x128x1x1 .f32 :=
  chanMean (mulf (subf O (broadcastInDim S64x128x44x44 ![0, 1, 2, 3] bcast_S1x128x1x1_S64x128x44x44_0_1_2_3 (chanMean O)))
    (subf O (broadcastInDim S64x128x44x44 ![0, 1, 2, 3] bcast_S1x128x1x1_S64x128x44x44_0_1_2_3 (chanMean O))))

/-- Everything after the variance: centre, scale by the reciprocal root of the variance plus 1e-5, scale by gamma, shift by
    beta, clamp below at zero. -/
def normalise (O : FVec Ideal S64x128x44x44 .f32) (mu v : FVec Ideal S1x128x1x1 .f32) (g b : FVec Ideal S128 .f32) :
    FVec Ideal S64x128x44x44 .f32 :=
  maximumf
    (addf
      (mulf
        (mulf (subf O (broadcastInDim S64x128x44x44 ![0, 1, 2, 3] bcast_S1x128x1x1_S64x128x44x44_0_1_2_3 mu))
          (broadcastInDim S64x128x44x44 ![0, 1, 2, 3] bcast_S1x128x1x1_S64x128x44x44_0_1_2_3
            (Host.rsqrt (F := Ideal) (addf v (broadcastInDim S1x128x1x1 ![] bcast_S_S1x128x1x1 (constant (F := Ideal) S_ .f32 0x3727C5AC#32))))))
        (broadcastInDim S64x128x44x44 ![0, 1, 2, 3] bcast_S1x128x1x1_S64x128x44x44_0_1_2_3 (shapeCast S1x128x1x1 g shapeCasts_S128_S1x128x1x1)))
      (broadcastInDim S64x128x44x44 ![0, 1, 2, 3] bcast_S1x128x1x1_S64x128x44x44_0_1_2_3 (shapeCast S1x128x1x1 b shapeCasts_S128_S1x128x1x1)))
    (broadcastInDim S64x128x44x44 ![] bcast_S_S64x128x44x44 (constant (F := Ideal) S_ .f32 0x00000000#32))

/-- The product laid out [64,128,44,44] from the call's [1936,64,128]: positions unfolded to (row, column), then batch and
    channel moved to the front. -/
def layout (P : FVec Ideal S1936x64x128 .f32) : FVec Ideal S64x128x44x44 .f32 :=
  transpose S64x128x44x44 [2, 3, 0, 1] (shapeCast S44x44x64x128 P shapeCasts_S1936x64x128_S44x44x64x128) transposes_S44x44x64x128_S64x128x44x44_2_3_0_1

variable (x : FVec Ideal S64x16x48x48 .f32) (k : FVec Ideal S1936x400x128 .f32) (g b : FVec Ideal S128 .f32)

/-- The second program's activations are the layout of its product. -/
theorem v48_eq : val_main_v48 (F := Ideal) x k = layout (val_main_v46 (F := Ideal) x k) := rfl

/-- Its mean stage is `chanMean` of its activations. -/
theorem v52_eq : val_main_v52 (F := Ideal) x k = chanMean (val_main_v48 (F := Ideal) x k) := rfl

/-- Its variance stage is the mean of the squared deviations. -/
theorem v59_eq : val_main_v59 (F := Ideal) x k = varOfDeviations (val_main_v48 (F := Ideal) x k) := rfl

/-- Its result is `normalise` of its activations, mean and variance. -/
theorem v73_eq : val_main_v73 (F := Ideal) x k g b
    = normalise (val_main_v48 (F := Ideal) x k) (val_main_v52 (F := Ideal) x k) (val_main_v59 (F := Ideal) x k) g b := rfl

end Cert.ReferenceIdeal.Tail

end
-- ==== Proof.Blocks.lean ====
/-
  The Pallas call, read as a value.

  The call's grid has 44 points. Point t stages rows 44t … 44t+43 of the patch array [1936,64,400] and of the weight
  array [1936,400,128], and writes rows 44t … 44t+43 of the result [1936,64,128]. Its body is one batched matrix product:
  for each of the 44 positions p of the block, out[p] = pat[p] · ker[p], a [64,400] by [400,128] product accumulated
  into zero. Over the extended reals entry (p, b, c) of the body's result is the sum over the 400 features f of
  pat[p,b,f] · ker[p,f,c]. That expression does not mention the block, so every block the call writes back is a block
  of ONE function of the two whole arrays, `posProd`: entry (p, b, c) of the whole result is the sum over f of
  pat[p,b,f] · ker[p,f,c], p now ranging over all 1936 positions. The 44 blocks tile the result, so after the call the
  result array IS `posProd` of the two arrays as the call finds them.
-/
import proofs.«122029_j87076166959109_2_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Blocks

open Cert.KernelIdeal Cert.KernelIdeal.Gen Idealize.ShloMosaic Idealize.ShloMosaic.TcCoe Idealize.SL.Sem
open Idealize.ShloMosaic.Pipeline (Dat Cfg Window)

/-! ## The per-position product as one function of the two arrays -/

/-- The patch entry that output entry `i` = (p, b, c) meets at feature `k`: (p, b, k). -/
abbrev lrow (i : S1936x64x128.Idx) (k : Fin 400) : S1936x64x400.Idx := fun a => match a with
  | ⟨0, _⟩ => ⟨(i 0).val, (i 0).isLt⟩
  | ⟨1, _⟩ => ⟨(i 1).val, (i 1).isLt⟩
  | ⟨2, _⟩ => ⟨k.val, k.isLt⟩
/-- The weight entry it meets there: (p, k, c). -/
abbrev rcol (i : S1936x64x128.Idx) (k : Fin 400) : S1936x400x128.Idx := fun a => match a with
  | ⟨0, _⟩ => ⟨(i 0).val, (i 0).isLt⟩
  | ⟨1, _⟩ => ⟨k.val, k.isLt⟩
  | ⟨2, _⟩ => ⟨(i 2).val, (i 2).isLt⟩

/-- Entry (p, b, c) of the per-position product: the sum over the features f of pat[p,b,f] · ker[p,f,c]. -/
def posProd (pat : S1936x64x400.Idx → EReal) (ker : S1936x400x128.Idx → EReal) : S1936x64x128.Idx → EReal :=
  fun i => ∑ k : Fin 400, pat (lrow i k) * ker (rcol i k)

/-- The same two index maps inside one block of 44 positions. -/
abbrev lrowB (y : S44x64x128.Idx) (k : Fin 400) : S44x64x400.Idx := fun a => match a with
  | ⟨0, _⟩ => ⟨(y 0).val, (y 0).isLt⟩
  | ⟨1, _⟩ => ⟨(y 1).val, (y 1).isLt⟩
  | ⟨2, _⟩ => ⟨k.val, k.isLt⟩
abbrev rcolB (y : S44x64x128.Idx) (k : Fin 400) : S44x400x128.Idx := fun a => match a with
  | ⟨0, _⟩ => ⟨(y 0).val, (y 0).isLt⟩
  | ⟨1, _⟩ => ⟨k.val, k.isLt⟩
  | ⟨2, _⟩ => ⟨(y 2).val, (y 2).isLt⟩

/-! ## The body's product at an index -/

/-- The block product's dimension numbers: batch axis 0 of both operands, contracting axis 2 of the left with axis 1 of
    the right. -/
abbrev dB : DotDims S44x64x400 S44x400x128 S44x64x128 := dot_S44x64x400_S44x400x128_S44x64x128_2_1_1_2_0_0

theorem lhsB_0 (y : S44x64x128.Idx) (q : dB.contr.Idx) : (dB.lhsIdx y q 0).val = (y 0).val := by
  unfold DotDims.lhsIdx
  rw [dif_pos (show (0 : Fin S44x64x400.rank) ∈ dB.lhsBatch by decide)]
  rfl
theorem lhsB_1 (y : S44x64x128.Idx) (q : dB.contr.Idx) : (dB.lhsIdx y q 1).val = (y 1).val := by
  unfold DotDims.lhsIdx
  rw [dif_neg (show ¬(1 : Fin S44x64x400.rank) ∈ dB.lhsBatch by decide), dif_pos (show (1 : Fin S44x64x400.rank) ∈ dB.lhsNonContracting by decide)]
  rfl
theorem lhsB_2 (y : S44x64x128.Idx) (q : dB.contr.Idx) : (dB.lhsIdx y q 2).val = (q ⟨0, by decide⟩).val :=
  dB.lhsIdx_val_of_single rfl y q
theorem rhsB_0 (y : S44x64x128.Idx) (q : dB.contr.Idx) : (dB.rhsIdx y q 0).val = (y 0).val := by
  unfold DotDims.rhsIdx
  rw [dif_pos (show (0 : Fin S44x400x128.rank) ∈ dB.rhsBatch by decide)]
  rfl
theorem rhsB_1 (y : S44x64x128.Idx) (q : dB.contr.Idx) : (dB.rhsIdx y q 1).val = (q ⟨0, by decide⟩).val :=
  dB.rhsIdx_val_of_single rfl y q
theorem rhsB_2 (y : S44x64x128.Idx) (q : dB.contr.Idx) : (dB.rhsIdx y q 2).val = (y 2).val := by
  unfold DotDims.rhsIdx
  rw [dif_neg (show ¬(2 : Fin S44x400x128.rank) ∈ dB.rhsBatch by decide), dif_pos (show (2 : Fin S44x400x128.rank) ∈ dB.rhsNonContracting by decide)]
  rfl

/-- The body's result at entry y = (p, b, c) of the block: the sum over the features of the two loaded blocks'
    products. The product accumulates into a zero splat, and zero is the extended real 0. -/
theorem pay_apply (x0 : FVec Ideal S44x64x400 .f32) (x1 : FVec Ideal S44x400x128 .f32) (y : S44x64x128.Idx) :
    k0_pay1 (F := Ideal) x0 x1 y = ∑ k : Fin 400, x0 (lrowB y k) * x1 (rcolB y k) := by
  show matmul dB none (shapeCast S44x64x400 x0 _) x1 (constant S44x64x128 .f32 0x00000000#32) y = _
  rw [shapeCast_self]
  simp only [matmul]
  rw [Ideal.matmul_constant_zero_apply, ← Equiv.sum_comp (ValueIdx.contrEquiv1 dB 400 rfl rfl).symm]
  refine Finset.sum_congr rfl fun k _ => ?_
  have hk := ValueIdx.contrEquiv1_symm_val dB 400 rfl rfl k
  have el : dB.lhsIdx y ((ValueIdx.contrEquiv1 dB 400 rfl rfl).symm k) = lrowB y k := funext fun a => Fin.ext (by
    match a with
    | ⟨0, _⟩ => exact lhsB_0 _ _
    | ⟨1, _⟩ => exact lhsB_1 _ _
    | ⟨2, _⟩ => exact (lhsB_2 _ _).trans hk)
  have er : dB.rhsIdx y ((ValueIdx.contrEquiv1 dB 400 rfl rfl).symm k) = rcolB y k := funext fun a => Fin.ext (by
    match a with
    | ⟨0, _⟩ => exact rhsB_0 _ _
    | ⟨1, _⟩ => exact (rhsB_1 _ _).trans hk
    | ⟨2, _⟩ => exact rhsB_2 _ _)
  rw [el, er]

/-- A block product is a block of the per-position product: if the two loaded blocks are the arrays A and B read
    through maps e0 and e1 that carry a block's index maps to the arrays' (the block's row p is row e2's of the arrays),
    the body's result at y is `posProd A B` at e2 y. -/
theorem block_prod (A : S1936x64x400.Idx → EReal) (B : S1936x400x128.Idx → EReal)
    (x0 : FVec Ideal S44x64x400 .f32) (x1 : FVec Ideal S44x400x128 .f32)
    (e0 : S44x64x400.Idx → S1936x64x400.Idx) (e1 : S44x400x128.Idx → S1936x400x128.Idx) (e2 : S44x64x128.Idx → S1936x64x128.Idx)
    (h0 : ∀ z, x0 z = A (e0 z)) (h1 : ∀ z, x1 z = B (e1 z))
    (hl : ∀ y k, e0 (lrowB y k) = lrow (e2 y) k) (hr : ∀ y k, e1 (rcolB y k) = rcol (e2 y) k) (y : S44x64x128.Idx) :
    k0_pay1 (F := Ideal) x0 x1 y = posProd A B (e2 y) := by
  rw [pay_apply]
  unfold posProd
  exact Finset.sum_congr rfl fun k _ => by rw [h0, h1, hl, hr]

/-! ## What a grid point writes back, and the array after the call -/

variable (m : (ℓ : Loc nD τ sig) → Buf (Elt Ideal) ℓ)

theorem hz : (![0, 0, 0] : Fin 3 → Nat) = fun _ => 0 := funext fun a => by fin_cases a <;> rfl

/-- The printed index maps, decided over the 44 grid points: every window's block index at point t is (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- Window 0's block at point t is the patch array read through the block's rectangle. -/
theorem iblk0_apply (c : Dev nD) (t : Fin cfg0.N) (z : S44x64x400.Idx) :
    (iblk m c 0 t : Vec Ideal S44x64x400 .f32) z = (V m c main_v45 : S1936x64x400.Idx → EReal) (((cfg0.win 0).blk t).view.emb z) := by
  unfold iblk
  rw [View.read_apply]
  rfl

/-- Window 1's block at point t is the weight array read through the block's rectangle. -/
theorem iblk1_apply (c : Dev nD) (t : Fin cfg0.N) (z : S44x400x128.Idx) :
    (iblk m c 1 t : Vec Ideal S44x400x128 .f32) z = (V m c main_arg1 : S1936x400x128.Idx → EReal) (((cfg0.win 1).blk t).view.emb z) := by
  unfold iblk
  rw [View.read_apply]
  rfl

/-- What point t writes back is the body's product of the two blocks it staged. -/
theorem flushed_pay (c : Dev nD) (t : Fin cfg0.N) :
    (dats m 0 c).flushed 2 t = (k0_pay1 (F := Ideal) (iblk m c 0 t) (iblk m c 1 t) : Vec Ideal S44x64x128 .f32) := by
  show (cfg0.win 2).cut (grid0.coords t) ((dats m 0 c).after 2 t) = _
  rw [after0_2]
  unfold out0_2
  rw [View.canon_unit_zero hz]
  simp only [View.ld_unit_zero (S := S44x64x400) hz, View.ld_unit_zero (S := S44x400x128) hz]
  rfl

/-- The patch block's rectangle carries a block's left index map to the array's: row p of block t is row 44t + p. -/
theorem emb_lrow (t : Fin cfg0.N) (y : S44x64x128.Idx) (k : Fin 400) :
    ((cfg0.win 0).blk t).view.emb (lrowB y k) = lrow (((cfg0.win 2).blk t).view.emb y) k := by
  obtain ⟨a0, a1, a2, b0, b1, b2, c0, c1, c2⟩ := idx_facts t
  funext a; apply Fin.ext
  match a with
  | ⟨0, _⟩ => show win0_0.index t (0 : Fin 3) * 44 + 1 * (y 0).val = win0_2.index t (0 : Fin 3) * 44 + 1 * (y 0).val; omega
  | ⟨1, _⟩ => show win0_0.index t (1 : Fin 3) * 64 + 1 * (y 1).val = win0_2.index t (1 : Fin 3) * 64 + 1 * (y 1).val; omega
  | ⟨2, _⟩ => show win0_0.index t (2 : Fin 3) * 400 + 1 * k.val = k.val; omega

/-- Likewise the weight block's rectangle and the right index map. -/
theorem emb_rcol (t : Fin cfg0.N) (y : S44x64x128.Idx) (k : Fin 400) :
    ((cfg0.win 1).blk t).view.emb (rcolB y k) = rcol (((cfg0.win 2).blk t).view.emb y) k := by
  obtain ⟨a0, a1, a2, b0, b1, b2, c0, c1, c2⟩ := idx_facts t
  funext a; apply Fin.ext
  match a with
  | ⟨0, _⟩ => show win0_1.index t (0 : Fin 3) * 44 + 1 * (y 0).val = win0_2.index t (0 : Fin 3) * 44 + 1 * (y 0).val; omega
  | ⟨1, _⟩ => show win0_1.index t (1 : Fin 3) * 400 + 1 * k.val = k.val; omega
  | ⟨2, _⟩ => show win0_1.index t (2 : Fin 3) * 128 + 1 * (y 2).val = win0_2.index t (2 : Fin 3) * 128 + 1 * (y 2).val; omega

/-- What point t writes back is block t of the per-position product of the patch array and the weight array as the
    call finds them: the body's result at (p, b, c) of the block reads rows 44t + p of both arrays. -/
theorem flushed_eq (c : Dev nD) (t : Fin cfg0.N) :
    (dats m 0 c).flushed 2 t = ((cfg0.win 2).blk t).view.read (Elt Ideal) (posProd (V m c main_v45) (V m c main_arg1)) := by
  rw [flushed_pay]
  funext y
  rw [View.read_apply]
  exact block_prod (V m c main_v45) (V m c main_arg1) (iblk m c 0 t) (iblk m c 1 t)
    (((cfg0.win 0).blk t).view.emb) (((cfg0.win 1).blk t).view.emb) (((cfg0.win 2).blk t).view.emb)
    (iblk0_apply m c t) (iblk1_apply m c t) (emb_lrow t) (emb_rcol t) y

/-- An index of the result is in point t's block iff each coordinate is in the block's range on its axis. -/
theorem mem_blk (t : Fin cfg0.N) (i : S1936x64x128.Idx) :
    i ∈ ((cfg0.win 2).blk t).view.set ↔ ∀ a : Fin 3, win0_2.index t a * S44x64x128.size a ≤ (i a).val ∧ (i a).val < win0_2.index t a * S44x64x128.size a + S44x64x128.size a := by
  show i ∈ ((View.whole main_v46).slice (win0_2.rect t)).set ↔ _
  rw [View.set_slice_whole, Rect.mem_set_unit]
  exact Iff.rfl

/-- The 44 blocks cover the result: row p lies in the block of point p / 44. -/
theorem cover (i : S1936x64x128.Idx) : ∃ t : Fin cfg0.N, (cfg0.win 2).flush t = true ∧ i ∈ ((cfg0.win 2).blk t).view.set := by
  have hN : cfg0.N = 44 := N_0
  have h0 : (i 0).val < 1936 := (i 0).isLt
  have h1 : (i 1).val < 64 := (i 1).isLt
  have h2 : (i 2).val < 128 := (i 2).isLt
  have ht : (i 0).val / 44 < cfg0.N := by rw [hN]; omega
  obtain ⟨-, -, -, -, -, -, c0, c1, c2⟩ := idx_facts ⟨(i 0).val / 44, ht⟩
  have c0' : win0_2.index ⟨(i 0).val / 44, ht⟩ (0 : Fin 3) = (i 0).val / 44 := c0
  refine ⟨⟨(i 0).val / 44, ht⟩, flush0_2 _, ?_⟩
  rw [mem_blk]
  intro a
  match a with
  | ⟨0, _⟩ => show win0_2.index ⟨(i 0).val / 44, ht⟩ (0 : Fin 3) * 44 ≤ (i 0).val ∧ (i 0).val < win0_2.index ⟨(i 0).val / 44, ht⟩ (0 : Fin 3) * 44 + 44; omega
  | ⟨1, _⟩ => show win0_2.index ⟨(i 0).val / 44, ht⟩ (1 : Fin 3) * 64 ≤ (i 1).val ∧ (i 1).val < win0_2.index ⟨(i 0).val / 44, ht⟩ (1 : Fin 3) * 64 + 64; omega
  | ⟨2, _⟩ => show win0_2.index ⟨(i 0).val / 44, ht⟩ (2 : Fin 3) * 128 ≤ (i 2).val ∧ (i 2).val < win0_2.index ⟨(i 0).val / 44, ht⟩ (2 : Fin 3) * 128 + 128; omega

/-- After the call the result array is the per-position product of the two arrays the call was given. -/
theorem final (c : Dev nD) : (dats m 0 c).arrAt 2 cfg0.N = posProd (V m c main_v45) (V m c main_arg1) :=
  (dats m 0 c).arrAt_eq_of_cover 2 (posProd (V m c main_v45) (V m c main_arg1)) (fun t _ => flushed_eq m c t) cover

end Cert.KernelIdeal.Blocks

end
-- ==== Proof.KTail.lean ====
/-
  The first program's result, read off its run.

  After the Pallas call the program lays the call's result P : [1936,64,128] out as O = layout P : [64,128,44,44] and
  applies the batch normalisation with the variance taken as the mean of the squares minus the square of the mean. Its
  host operations after the call read three things only: the call's result array, gamma and beta. So the buffer it
  returns holds
      normalise O (chanMean O) (varOfSquares O) gamma beta ,   O = layout P ,
  with P the call's result array after the run, and gamma, beta as launched.
-/
import proofs.«122029_j87076166959109_2_alg».proof.Proof.Gen.KernelIdeal.Frame
import proofs.«122029_j87076166959109_2_alg».proof.Proof.Tail
import proofs.«122029_j87076166959109_2_alg».proof.Proof.Blocks
import Idealize.ShloMosaic.Lib.StableHlo.Run

noncomputable section

namespace Cert.KernelIdeal.KTail

open Cert.KernelIdeal Cert.KernelIdeal.Gen Idealize.ShloMosaic Idealize.ShloMosaic.TcCoe Idealize.SL.Sem Idealize.ShloMosaic.StableHlo
open Cert.ReferenceIdeal.Tail (normalise layout chanMean varOfSquares)
open Idealize.ShloMosaic.Pipeline (Dat Cfg Window)

variable (m : (ℓ : Loc nD τ sig) → Buf (Elt Ideal) ℓ)

/-- The host operations after the call, run over ANY buffer contents W, leave in the returned buffer the batch
    normalisation of the layout of what W holds in the call's result buffer, with W's gamma and beta. -/
theorem tail_of (W : Valuation τ sig (Elt Ideal)) :
    StableHlo.after ((hostOps1 (F := Ideal)) ++ (hostOps1_1 (F := Ideal))) W (Proc.devRef .tc main_v73)
      = normalise (layout (W (Proc.devRef .tc main_v46))) (chanMean (layout (W (Proc.devRef .tc main_v46))))
          (varOfSquares (layout (W (Proc.devRef .tc main_v46)))) (W (Proc.devRef .tc main_arg2)) (W (Proc.devRef .tc main_arg3)) := by
  simp only [hostOps1, hostOps1_1, List.cons_append, List.nil_append]
  after_results_simp
  rfl

open Cert.KernelIdeal.Blocks (posProd)

/-- The buffer the first program returns, in terms of what the Pallas call was given: the batch normalisation (variance as
    mean of squares minus square of mean) of the layout of the per-position product of the staged patch array and the
    launched weights, with the launched gamma and beta. The host operations after the call run over the buffers as the call
    left them: the call's result array holds the per-position product, and no operation before them wrote gamma or beta. -/
theorem result_eq (c : Dev nD) :
    Pipeline.afterTail₀ cfgs (dats m) 0 (V0 m) [hostOps1, hostOps1_1] c main_v73
      = normalise (layout (posProd (V m c main_v45) (m ((c.tc : Thread nD τ).loc main_arg1))))
          (chanMean (layout (posProd (V m c main_v45) (m ((c.tc : Thread nD τ).loc main_arg1)))))
          (varOfSquares (layout (posProd (V m c main_v45) (m ((c.tc : Thread nD τ).loc main_arg1)))))
          (m ((c.tc : Thread nD τ).loc main_arg2)) (m ((c.tc : Thread nD τ).loc main_arg3)) := by
  unfold Pipeline.afterTail₀
  have hfl : ([hostOps1 (F := Ideal), hostOps1_1 (F := Ideal)] : List (List (HloOp τ sig (Elt Ideal)))).flatten = hostOps1 ++ hostOps1_1 := by
    simp only [List.flatten_cons, List.flatten_nil, List.append_nil]
  rw [hfl, tail_of]
  have e46 : Pipeline.withArrays (cfgs 0).spec c (V0 m c) (fun w => (dats m 0 c).arrAt w (cfgs 0).N) (Proc.devRef .tc main_v46)
      = (dats m 0 c).arrAt 2 cfg0.N :=
    Pipeline.withArrays_arr spec0 launch0.win.arr_inj c _ _ 2
  have e2 : Pipeline.withArrays (cfgs 0).spec c (V0 m c) (fun w => (dats m 0 c).arrAt w (cfgs 0).N) (Proc.devRef .tc main_arg2)
      = m ((c.tc : Thread nD τ).loc main_arg2) :=
    (Pipeline.withArrays_of_ne _ c (V0 m c) _ main_arg2 (by exact (by decide : ∀ w, Pipeline.arrRef spec0 w ≠ main_arg2))).trans (V_main_arg2 m c)
  have e3 : Pipeline.withArrays (cfgs 0).spec c (V0 m c) (fun w => (dats m 0 c).arrAt w (cfgs 0).N) (Proc.devRef .tc main_arg3)
      = m ((c.tc : Thread nD τ).loc main_arg3) :=
    (Pipeline.withArrays_of_ne _ c (V0 m c) _ main_arg3 (by exact (by decide : ∀ w, Pipeline.arrRef spec0 w ≠ main_arg3))).trans (V_main_arg3 m c)
  rw [e46, e2, e3, Blocks.final, V_main_arg1]

end Cert.KernelIdeal.KTail

end
-- ==== Proof.Moments.lean ====
/- Moments of a finite real family inside the extended reals: the two float literals the
   averaging uses, the passage between real and extended-real sums and quotients, and the
   identity  mean of squared deviations = mean of squares − square of the mean. -/
import Idealize.ShloMosaic.PureOps.Ideal

noncomputable section

namespace Cert.Moments

open Idealize.ShloMosaic
open scoped BigOperators

/-- the literal 123904.0 (= 64·44·44, the number of entries averaged per channel) is the real 123904 -/
theorem ofBits_count : Ideal.ofBits .f32 0x47F20000#32 = ((123904 : ℝ) : EReal) := by
  simp [Ideal.ofBits, Ideal.ieee, -EReal.coe_mul]; norm_num

/-- the literal nearest 1e-7 is a positive real number -/
theorem ofBits_eps_pos : ∃ e : ℝ, 0 < e ∧ Ideal.ofBits .f32 0x33D6BF95#32 = (e : EReal) := by
  refine ⟨(1 : ℝ) * ((2 ^ 23 + 0x56BF95 : ℕ) : ℝ) * (2 : ℝ) ^ ((103 : ℤ) - (2 ^ (8 - 1) - 1) - (23 : ℕ)),
    by positivity, ?_⟩
  simp [Ideal.ofBits, Ideal.ieee, -EReal.coe_mul]

/-- Ideal.div of two reals with nonzero divisor is the real quotient -/
theorem div_coe_coe (a b : ℝ) (hb : b ≠ 0) :
    Ideal.div (a : EReal) (b : EReal) = ((a / b : ℝ) : EReal) := by
  have hb' : (b : EReal) ≠ 0 := by exact_mod_cast hb
  rw [Ideal.div, if_neg hb', div_eq_mul_inv, EReal.coe_mul, EReal.coe_inv]

/-- coercion commutes with finite sums -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The real identity: with n the (nonzero) number of terms and μ = (∑ o)/n, expanding the
    square gives ∑ (o − μ)² = ∑ o² − 2μ·∑ o + n·μ² = ∑ o² − n·μ², and dividing by n gives
    the claim. -/
private theorem variance_real {ι : Type*} (s : Finset ι) (o : ι → ℝ) (n : ℝ) (hn : n ≠ 0)
    (hcard : (s.card : ℝ) = n) :
    (∑ i ∈ s, (o i - (∑ i ∈ s, o i) / n) * (o i - (∑ i ∈ s, o i) / n)) / n
      = (∑ i ∈ s, o i * o i) / n - (∑ i ∈ s, o i) / n * ((∑ i ∈ s, o i) / n) := by
  have hexp : ∀ μ : ℝ, ∑ i ∈ s, (o i - μ) * (o i - μ)
      = ∑ i ∈ s, o i * o i - 2 * μ * ∑ i ∈ s, o i + n * (μ * μ) := by
    intro μ
    have h : ∀ i, (o i - μ) * (o i - μ) = o i * o i - 2 * μ * o i + μ * μ := fun i => by ring
    simp only [h, Finset.sum_add_distrib, Finset.sum_sub_distrib, ← Finset.mul_sum,
      Finset.sum_const, nsmul_eq_mul, hcard]
    ring
  rw [hexp]
  field_simp
  ring

/-- THE MAIN LEMMA: over a finite family of 123904 real numbers, the mean of the squared
    deviations from the mean equals the mean of the squares minus the square of the mean, all
    operations being the extended reals' (Ideal.div, EReal +, -, *). Every quantity involved is
    a real number, so the statement is the coercion of the real identity. -/
theorem variance_forms {ι : Type*} (s : Finset ι) (o : ι → ℝ) (hcard : s.card = 123904) :
    Ideal.div (∑ i ∈ s, ((o i : EReal) - Ideal.div (∑ i ∈ s, (o i : EReal)) ((123904 : ℝ) : EReal))
                        * ((o i : EReal) - Ideal.div (∑ i ∈ s, (o i : EReal)) ((123904 : ℝ) : EReal))) ((123904 : ℝ) : EReal)
      = Ideal.div (∑ i ∈ s, (o i : EReal) * (o i : EReal)) ((123904 : ℝ) : EReal)
          - Ideal.div (∑ i ∈ s, (o i : EReal)) ((123904 : ℝ) : EReal) * Ideal.div (∑ i ∈ s, (o i : EReal)) ((123904 : ℝ) : EReal) := by
  have hn : (123904 : ℝ) ≠ 0 := by norm_num
  have hc : (s.card : ℝ) = 123904 := by rw [hcard]; norm_num
  simp only [← coe_sum, div_coe_coe _ _ hn, ← EReal.coe_sub, ← EReal.coe_mul]
  rw [EReal.coe_eq_coe_iff]
  exact variance_real s o 123904 hn hc

end Cert.Moments

end
-- ==== Proof.Fiber.lean ====
import Idealize.ShloMosaic.Lib.ValueIdx

/-!
  The reduction of a [64, 128, 44, 44] array over its axes 0, 2 and 3 keeps axis 1 only: an index falls into
  channel `j` exactly when its coordinate on axis 1 is `j`'s, and each channel collects 64 · 44 · 44 = 123904 entries.
-/

namespace Cert.Fiber

open Idealize.ShloMosaic Idealize.ShloMosaic.ValueIdx

/-- the shape of the reduced array -/
abbrev SO : Shape := ⟨4, ![64, 128, 44, 44]⟩
/-- the shape of the per-channel result -/
abbrev SC : Shape := ⟨1, ![128]⟩

/-- removing axes 0, 2, 3 of a rank-4 shape leaves axis 1 -/
theorem kept_eq : SO.kept [0, 2, 3] = [1] := by decide

/-- the one coordinate of the dropped index is the coordinate on axis 1 -/
theorem drop_val (h : SO.ReducesTo [0, 2, 3] SC) (i : SO.Idx) : (h.drop i 0).val = (i 1).val := by
  have key : ∀ a : Fin 4, a = 1 → (i a).val = (i 1).val := by
    intro a ha; subst ha; rfl
  show ((i ((SO.kept [0, 2, 3])[(0 : Fin 1).cast h.1])).cast _).val = _
  rw [Fin.val_cast]
  exact key _ rfl

/-- an index reduces into channel j exactly when its coordinate on axis 1 is j's -/
theorem drop_eq_iff (h : SO.ReducesTo [0, 2, 3] SC) (i : SO.Idx) (j : SC.Idx) :
    h.drop i = j ↔ (i 1).val = (j 0).val := by
  constructor
  · intro e
    rw [← drop_val h i, e]
  · intro e
    funext b
    match b with
    | ⟨0, _⟩ => exact Fin.ext ((drop_val h i).trans e)

/-- the index with coordinate `c` on axis 1 and the given coordinates on the three reduced axes -/
def fill (c : Fin 128) (p : Fin 64 × Fin 44 × Fin 44) : SO.Idx := ix4 p.1 c p.2.1 p.2.2

/-- different coordinates on the reduced axes give different indices -/
theorem fill_injective (c : Fin 128) : Function.Injective (fill c) := by
  rintro ⟨a, b, d⟩ ⟨a', b', d'⟩ e
  have e0 : a = a' := congrFun e 0
  have e2 : b = b' := congrFun e 2
  have e3 : d = d' := congrFun e 3
  subst e0 e2 e3
  rfl

/-- each channel receives 64·44·44 = 123904 entries -/
theorem card_fiber (h : SO.ReducesTo [0, 2, 3] SC) (j : SC.Idx) :
    (Finset.univ.filter fun i : SO.Idx => h.drop i = j).card = 123904 := by
  have hset : (Finset.univ.filter fun i : SO.Idx => h.drop i = j)
      = Finset.univ.image (fill (j 0)) := by
    ext i
    simp only [Finset.mem_filter, Finset.mem_univ, true_and, Finset.mem_image, drop_eq_iff]
    constructor
    · intro e
      refine ⟨(i 0, i 2, i 3), ?_⟩
      funext a
      match a with
      | ⟨0, _⟩ => rfl
      | ⟨1, _⟩ => exact Fin.ext e.symm
      | ⟨2, _⟩ => rfl
      | ⟨3, _⟩ => rfl
    · rintro ⟨p, rfl⟩
      rfl
  rw [hset, Finset.card_image_of_injective _ (fill_injective (j 0)), Finset.card_univ]
  simp only [Fintype.card_prod, Fintype.card_fin]

end Cert.Fiber
-- ==== Proof.RealArr.lean ====
/-
  Arrays over the extended reals all of whose entries are real numbers.

  The two programs compute the batch variance in two ways, the mean of the squares minus the square of the mean on one
  side and the mean of the squared deviations on the other. The two agree on real numbers and differ as soon as an
  entry is infinite, so the proof carries the fact that every entry of the normalised activations is a real number
  from the inputs to the place where the two variances meet. This module only names that fact.
-/
import Idealize.ShloMosaic.PureOps.Ideal

noncomputable section

namespace Cert.RealArr

open Idealize.ShloMosaic

/-- Every entry of the array is a real number: none is an infinity. -/
def AllReal {S : Shape} (v : S.Idx → EReal) : Prop := ∀ i, ∃ r : ℝ, v i = (r : EReal)

/-- An array of real entries is the coercion of a real array. -/
theorem AllReal.exists_real {S : Shape} {v : S.Idx → EReal} (h : AllReal v) : ∃ o : S.Idx → ℝ, ∀ i, v i = (o i : EReal) :=
  ⟨fun i => (h i).choose, fun i => (h i).choose_spec⟩

end Cert.RealArr

end
-- ==== Proof.VarBridge.lean ====
/-
  On real entries the two forms of the batch variance agree.

  For each channel c the 64·44·44 = 123904 entries O[·,c,·,·] have a mean mu_c. One program computes the variance as the
  mean of the squares minus mu_c², the other as the mean of the squared deviations (O − mu_c)². Read at an index, the
  channel mean is the sum over the indices whose coordinate on axis 1 is c, divided by 123904; the array of means laid
  back out over [64,128,44,44] reads, at every index of channel c, the mean of channel c. Both variances are then
  expressions in the one finite family of reals (O i) for i in channel c, and the identity
      (1/n) ∑ (o − mu)² = (1/n) ∑ o² − mu²     with mu = (1/n) ∑ o, n = 123904 the number of terms,
  between reals is the claim.
-/
import proofs.«122029_j87076166959109_2_alg».proof.Proof.Tail
import proofs.«122029_j87076166959109_2_alg».proof.Proof.Moments
import proofs.«122029_j87076166959109_2_alg».proof.Proof.Fiber
import proofs.«122029_j87076166959109_2_alg».proof.Proof.RealArr
import Idealize.ShloMosaic.Lib.IdealHost

noncomputable section

namespace Cert.ReferenceIdeal.VarBridge

open Idealize.ShloMosaic Cert.RealArr Cert.ReferenceIdeal Cert.ReferenceIdeal.Gen Cert.ReferenceIdeal.Read Cert.ReferenceIdeal.Tail

/-- The sum over a channel laid out [1,128,1,1] read at an index: the operand at that index's channel. -/
theorem bcastChan_apply {α : Type} (y : S128.Idx → α) (i : S1x128x1x1.Idx) :
    broadcastInDim S1x128x1x1 ![1] bcast_S128_S1x128x1x1_1 y i = y (idx_main_v50 i) :=
  broadcastInDim_apply _ bcast_S128_S1x128x1x1_1 y i (idx_main_v50 i) (fun a => match a with
    | ⟨0, _⟩ => by show (i 1).val = if (128 : Nat) = 1 then 0 else (i 1).val; rw [if_neg (by decide)])

/-- A scalar laid out [1,128,1,1] read at an index: the scalar. -/
theorem bcastScalar_apply {α : Type} (y : S_.Idx → α) (i : S1x128x1x1.Idx) :
    broadcastInDim S1x128x1x1 ![] bcast_S_S1x128x1x1 y i = y (idx_main_v51 i) :=
  broadcastInDim_apply _ bcast_S_S1x128x1x1 y i (idx_main_v51 i) (fun a => a.elim0)

/-- A per-channel array laid out [64,128,44,44] read at an index: the operand at that index's channel. -/
theorem bcastFull_apply {α : Type} (y : S1x128x1x1.Idx → α) (i : S64x128x44x44.Idx) :
    broadcastInDim S64x128x44x44 ![0, 1, 2, 3] bcast_S1x128x1x1_S64x128x44x44_0_1_2_3 y i = y (idx_main_v53 i) :=
  broadcastInDim_apply _ bcast_S1x128x1x1_S64x128x44x44_0_1_2_3 y i (idx_main_v53 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)]
    | ⟨2, _⟩ => by show 0 = if (1 : Nat) = 1 then 0 else (i 2).val; rw [if_pos rfl]
    | ⟨3, _⟩ => by show 0 = if (1 : Nat) = 1 then 0 else (i 3).val; rw [if_pos rfl])

/-- The channel mean read at an index: the sum of the channel's entries divided by their number 123904. -/
theorem chanMean_apply (A : FVec Ideal S64x128x44x44 .f32) (i : S1x128x1x1.Idx) :
    chanMean A i = Ideal.div (∑ i' ∈ Finset.univ.filter (fun i' => reducesTo_S64x128x44x44_S128_d0_2_3.drop i' = idx_main_v50 i), A i')
      ((123904 : ℝ) : EReal) := by
  unfold chanMean
  rw [ValueIdx.hostDivf_apply, bcastChan_apply, bcastScalar_apply, ValueIdx.hostReduceAdd_apply]
  unfold Ideal.hostReduceAdd
  show Ideal.div (Ideal.ofBits .f32 0x00000000#32 + _) (Ideal.ofBits .f32 0x47F20000#32) = _
  rw [Ideal.ofBits_zero_f32, zero_add, Cert.Moments.ofBits_count]

/-- An index of the [1,128,1,1] layout is determined by its channel: the other three axes have one coordinate. -/
theorem idx_eq (i : S1x128x1x1.Idx) (i' : S64x128x44x44.Idx) (h : (i' 1).val = (i 1).val) : idx_main_v53 i' = i := by
  funext a
  match a with
  | ⟨0, _⟩ => exact Fin.ext (by have h0 : (i 0).val < 1 := (i 0).isLt; show 0 = (i 0).val; omega)
  | ⟨1, _⟩ => exact Fin.ext (by show (i' 1).val = (i 1).val; exact h)
  | ⟨2, _⟩ => exact Fin.ext (by have h2 : (i 2).val < 1 := (i 2).isLt; show 0 = (i 2).val; omega)
  | ⟨3, _⟩ => exact Fin.ext (by have h3 : (i 3).val < 1 := (i 3).isLt; show 0 = (i 3).val; omega)

/-- Inside channel i's entries, the squared deviation from the broadcast mean is the squared deviation from the mean
    of channel i. -/
theorem dev_term (O : FVec Ideal S64x128x44x44 .f32) (i : S1x128x1x1.Idx) (i' : S64x128x44x44.Idx)
    (h : (i' 1).val = (i 1).val) :
    mulf (subf O (broadcastInDim S64x128x44x44 ![0, 1, 2, 3] bcast_S1x128x1x1_S64x128x44x44_0_1_2_3 (chanMean O)))
      (subf O (broadcastInDim S64x128x44x44 ![0, 1, 2, 3] bcast_S1x128x1x1_S64x128x44x44_0_1_2_3 (chanMean O))) i'
      = (O i' - chanMean O i) * (O i' - chanMean O i) := by
  have e : broadcastInDim S64x128x44x44 ![0, 1, 2, 3] bcast_S1x128x1x1_S64x128x44x44_0_1_2_3 (chanMean O) i' = chanMean O i := by
    rw [bcastFull_apply, idx_eq i i' h]
  show (O i' - broadcastInDim S64x128x44x44 ![0, 1, 2, 3] bcast_S1x128x1x1_S64x128x44x44_0_1_2_3 (chanMean O) i')
      * (O i' - broadcastInDim S64x128x44x44 ![0, 1, 2, 3] bcast_S1x128x1x1_S64x128x44x44_0_1_2_3 (chanMean O) i') = _
  rw [e]

/-- on an array of real entries the two forms of the batch variance agree: per channel, the mean of the squares minus
    the square of the mean is the mean of the squared deviations from the mean -/
theorem var_eq (O : FVec Ideal S64x128x44x44 .f32) (hO : AllReal (S := S64x128x44x44) O) :
    varOfSquares O = varOfDeviations O := by
  obtain ⟨o, ho⟩ := hO.exists_real
  funext i
  have hL : varOfSquares O i = chanMean (mulf O O) i - chanMean O i * chanMean O i := rfl
  have hR : varOfDeviations O i
      = Ideal.div (∑ i' ∈ Finset.univ.filter (fun i' => reducesTo_S64x128x44x44_S128_d0_2_3.drop i' = idx_main_v50 i),
          (O i' - chanMean O i) * (O i' - chanMean O i)) ((123904 : ℝ) : EReal) := by
    unfold varOfDeviations
    rw [chanMean_apply]
    refine congrArg (fun s => Ideal.div s ((123904 : ℝ) : EReal)) (Finset.sum_congr rfl fun i' hi' => ?_)
    exact dev_term O i i' ((Cert.Fiber.drop_eq_iff _ i' (idx_main_v50 i)).mp (Finset.mem_filter.mp hi').2)
  have hsq : ∀ i', mulf O O i' = (o i' : EReal) * (o i' : EReal) := fun i' => by
    show O i' * O i' = _
    rw [ho]
  rw [hL, hR, chanMean_apply, chanMean_apply]
  simp only [hsq, ho]
  exact (Cert.Moments.variance_forms _ o (Cert.Fiber.card_fiber _ (idx_main_v50 i))).symm

end Cert.ReferenceIdeal.VarBridge

end
-- ==== Proof.OutReal.lean ====
/-
  The activations that reach the batch normalisation are real numbers when the inputs are.

  The reference program divides every sample by its Euclidean norm plus a small positive constant, cuts the result
  into 5 by 5 patches, and multiplies each patch position by its own weight matrix. Every step keeps real numbers real:
  a square of a real is a nonnegative real, a finite sum of nonnegative reals is a nonnegative real, so is its square
  root, adding a positive constant gives a positive real, a real divided by a positive real is real, the patch
  extraction and the changes of layout only move entries around, and a finite sum of products of reals is real.
  No entry can therefore be an infinity, which is what the comparison of the two variance formulas needs.
-/
import proofs.«122029_j87076166959109_2_alg».proof.Proof.Gen.ReferenceIdeal.Read
import proofs.«122029_j87076166959109_2_alg».proof.Proof.RealArr
import Idealize.ShloMosaic.Lib.IdealHost

noncomputable section

namespace Cert.OutReal

open Idealize.ShloMosaic Cert.RealArr Cert.ReferenceIdeal Cert.ReferenceIdeal.Read

/-- A finite sum of nonnegative reals is a nonnegative real: by induction on the index set, adding one term at a time. -/
theorem sum_nonneg_real {ι : Type} (s : Finset ι) (f : ι → EReal)
    (h : ∀ i ∈ s, ∃ r : ℝ, 0 ≤ r ∧ f i = (r : EReal)) : ∃ r : ℝ, 0 ≤ r ∧ ∑ i ∈ s, f i = (r : EReal) := by
  classical
  induction s using Finset.induction_on with
  | empty => exact ⟨0, le_rfl, by simp⟩
  | insert a s ha ih =>
    obtain ⟨r, hr, er⟩ := h a (Finset.mem_insert_self a s)
    obtain ⟨t, ht, et⟩ := ih (fun i hi => h i (Finset.mem_insert_of_mem hi))
    exact ⟨r + t, add_nonneg hr ht, by rw [Finset.sum_insert ha, er, et, EReal.coe_add]⟩

/-- A finite sum of reals is a real, by the same induction. -/
theorem sum_real {ι : Type} (s : Finset ι) (f : ι → EReal)
    (h : ∀ i ∈ s, ∃ r : ℝ, f i = (r : EReal)) : ∃ r : ℝ, ∑ i ∈ s, f i = (r : EReal) := by
  classical
  induction s using Finset.induction_on with
  | empty => exact ⟨0, by simp⟩
  | insert a s ha ih =>
    obtain ⟨r, er⟩ := h a (Finset.mem_insert_self a s)
    obtain ⟨t, et⟩ := ih (fun i hi => h i (Finset.mem_insert_of_mem hi))
    exact ⟨r + t, by rw [Finset.sum_insert ha, er, et, EReal.coe_add]⟩

variable (x : FVec Ideal S64x16x48x48 .f32) (k : FVec Ideal S1936x400x128 .f32)

/-- The square of a real entry is a nonnegative real. -/
theorem v0_nonneg (hx : AllReal x) (i : S64x16x48x48.Idx) :
    ∃ r : ℝ, 0 ≤ r ∧ val_main_v0 (F := Ideal) x i = (r : EReal) := by
  obtain ⟨a, ha⟩ := hx i
  refine ⟨a * a, mul_self_nonneg a, ?_⟩
  rw [val_main_v0_apply, Ideal.mulf_def, ha, EReal.coe_mul]

/-- The sum of the squares of one sample is zero plus a finite sum of nonnegative reals, a nonnegative real. -/
theorem v1_nonneg (hx : AllReal x) (j : S64.Idx) :
    ∃ r : ℝ, 0 ≤ r ∧ val_main_v1 (F := Ideal) x j = (r : EReal) := by
  unfold val_main_v1
  rw [ValueIdx.hostReduceAdd_apply]
  unfold Ideal.hostReduceAdd
  rw [val_main_cst_apply, Ideal.ofBits_def, Ideal.ofBits_zero_f32, zero_add]
  exact sum_nonneg_real _ _ (fun i _ => v0_nonneg x hx i)

/-- The Euclidean norm of a sample, the square root of a nonnegative real, is a nonnegative real. -/
theorem v3_nonneg (hx : AllReal x) (i : S64x1x1x1.Idx) :
    ∃ r : ℝ, 0 ≤ r ∧ val_main_v3 (F := Ideal) x i = (r : EReal) := by
  obtain ⟨r, hr, er⟩ := v1_nonneg x hx (idx_main_v2 i)
  refine ⟨Real.sqrt r, Real.sqrt_nonneg r, ?_⟩
  rw [val_main_v3_apply, val_main_v2_apply, er, Ideal.hostUnary_sqrt_def, Ideal.sqrt_coe, if_neg (not_lt.mpr hr)]

/-- The divisor, the norm plus a positive constant, is a positive real. -/
theorem v5_pos (heps : ∃ e : ℝ, 0 < e ∧ Ideal.ofBits .f32 0x33D6BF95#32 = (e : EReal)) (hx : AllReal x)
    (i : S64x1x1x1.Idx) : ∃ r : ℝ, 0 < r ∧ val_main_v5 (F := Ideal) x i = (r : EReal) := by
  obtain ⟨e, he, ee⟩ := heps
  obtain ⟨r, hr, er⟩ := v3_nonneg x hx i
  refine ⟨r + e, add_pos_of_nonneg_of_pos hr he, ?_⟩
  rw [val_main_v5_apply, val_main_v4_apply, val_main_cst_0_apply, er, Ideal.addf_def, Ideal.ofBits_def, ee,
    EReal.coe_add]

/-- A real entry divided by a positive real is the real product with the reciprocal. -/
theorem v7_real (heps : ∃ e : ℝ, 0 < e ∧ Ideal.ofBits .f32 0x33D6BF95#32 = (e : EReal)) (hx : AllReal x) :
    AllReal (S := S64x16x48x48) (val_main_v7 (F := Ideal) x) := by
  intro i
  obtain ⟨a, ha⟩ := hx i
  obtain ⟨d, hd, ed⟩ := v5_pos x heps hx (idx_main_v6 i)
  refine ⟨a * (1 / d), ?_⟩
  rw [val_main_v7_apply, val_main_v6_apply, ed, Ideal.hostDivf_def, Ideal.div_coe hd.ne', ha, EReal.coe_mul]

/-- Every entry of the patches, laid out one row per patch position and sample, is an entry of the normalised
    activations: the change of shape reads the transposed array at some index, the transposition reads the gathered
    array at some index, and the gather reads its operand at some index. -/
theorem v45_real (heps : ∃ e : ℝ, 0 < e ∧ Ideal.ofBits .f32 0x33D6BF95#32 = (e : EReal)) (hx : AllReal x) :
    AllReal (S := S1936x64x400) (val_main_v45 (F := Ideal) x) := by
  intro i
  show ∃ r : ℝ, val_main_v44 (F := Ideal) x (Shape.reshapeEquiv _ i) = (r : EReal)
  rw [val_main_v44_apply]
  unfold val_main_v43 Host.gather
  exact v7_real x heps hx _

/-- An entry of the product is a sum over the 400 patch coordinates of products of two reals. -/
theorem v46_real (heps : ∃ e : ℝ, 0 < e ∧ Ideal.ofBits .f32 0x33D6BF95#32 = (e : EReal)) (hx : AllReal x)
    (hk : AllReal k) : AllReal (S := S1936x64x128) (val_main_v46 (F := Ideal) x k) := by
  intro i
  rw [val_main_v46_apply]
  refine sum_real _ _ (fun j _ => ?_)
  obtain ⟨a, ha⟩ := v45_real x heps hx (lidx_main_v46 i j)
  obtain ⟨b, hb⟩ := hk (ridx_main_v46 i j)
  exact ⟨a * b, by rw [ha, hb, EReal.coe_mul]⟩

/-- the normalised activations after the unshared-weight product, laid out [64,128,44,44], are real numbers when the
    activations x and the weights k are -/
theorem out_real (heps : ∃ e : ℝ, 0 < e ∧ Ideal.ofBits .f32 0x33D6BF95#32 = (e : EReal)) (hx : AllReal x)
    (hk : AllReal k) : AllReal (S := S64x128x44x44) (val_main_v48 (F := Ideal) x k) := by
  intro i
  rw [val_main_v48_apply, val_main_v47_apply]
  exact v46_real x k heps hx hk _

end Cert.OutReal

end
-- ==== Proof.PreReal.lean ====
import proofs.«122029_j87076166959109_2_alg».proof.Proof.Gen.Pre_finite_inputs
import proofs.«122029_j87076166959109_2_alg».proof.Proof.RealArr
import Idealize.ShloMosaic.Lib.ReduceAll
import Idealize.ShloMosaic.Lib.ValueIdx

/-!
  The precondition says that every entry of every float input has absolute value below +∞. Over the extended reals
  the absolute value of an entry `v` is `max v (-v)`, which is +∞ at both infinities, so an entry that passes the test is
  a real number. The precondition is the conjunction, over the four inputs, of the conjunction over all entries of that
  test; its being true gives the test at every entry of the first two inputs.
-/

noncomputable section

namespace Cert.PreReal

open Idealize.ShloMosaic Cert.RealArr

/-- the scalar shape has exactly one index -/
instance : Subsingleton Cert.Pre_finite_inputs.S_.Idx := ⟨fun a b => funext fun d => d.elim0⟩

/-- an extended real whose absolute value `max v (-v)` is below +∞ is a real number: at −∞ and at +∞ the absolute
    value is +∞ -/
theorem real_of_abs_lt_top (v : EReal) (h : max v (-v) < ⊤) : ∃ r : ℝ, v = (r : EReal) := by
  induction v using EReal.rec with
  | bot => simp at h
  | coe r => exact ⟨r, rfl⟩
  | top => simp at h

/-- the f32 pattern 0x7F800000 (exponent all ones, mantissa zero, sign plus) denotes +∞ -/
theorem inf_eq_top : Ideal.ofBits .f32 0x7F800000#32 = ⊤ := by simp [Ideal.ofBits, Ideal.ieee]

/-- a truth value written as one bit is 1 exactly when it is true -/
theorem ofBool_eq_one (b : Bool) : BitVec.ofBool b = 1#1 ↔ b = true := by cases b <;> decide

/-- an entry whose absolute value compares below the +∞ pattern is a real number -/
theorem real_of_cmp (v : Ideal .f32)
    (h : FloatOps.cmpf (F := Ideal) .olt (FloatOps.hostAbsf v) (FloatOps.ofBits .f32 0x7F800000#32) = 1#1) :
    ∃ r : ℝ, v = (r : EReal) := by
  apply real_of_abs_lt_top
  have h' : Ideal.cmp .olt (max v (-v)) (Ideal.ofBits .f32 0x7F800000#32) = 1#1 := h
  rw [inf_eq_top] at h'
  unfold Ideal.cmp at h'
  rw [ofBool_eq_one] at h'
  exact of_decide_eq_true h'

/-- if the printed precondition evaluates to true at Ideal, every entry of the first two inputs (the activations and
    the unshared weights) is a real number: the result is the `and` of the four per-input tests, each of which is the
    `and` over all entries of "the absolute value is below +∞" -/
theorem real_of_pre [Cert.Pre_finite_inputs.Facts]
    (x : FVec Ideal Cert.Pre_finite_inputs.S64x16x48x48 .f32) (k : FVec Ideal Cert.Pre_finite_inputs.S1936x400x128 .f32)
    (g b : FVec Ideal Cert.Pre_finite_inputs.S128 .f32)
    (h : Cert.Pre_finite_inputs.fn (F := Ideal) x k g b = (fun _ => 1#1)) : AllReal x ∧ AllReal k := by
  have h0 := congrFun h ValueIdx.ix0
  dsimp only [Cert.Pre_finite_inputs.fn, Cert.Pre_finite_inputs.fn_part1] at h0
  dsimp only [andi] at h0
  rw [IntOp.andi_eq_one, IntOp.andi_eq_one, IntOp.andi_eq_one] at h0
  obtain ⟨⟨⟨hx, hk⟩, -⟩, -⟩ := h0
  constructor
  · intro i
    exact real_of_cmp (x i) (Host.reduce_andi_all _ _ _ _ _ hx i)
  · intro i
    exact real_of_cmp (k i) (Host.reduce_andi_all _ _ _ _ _ hk i)

end Cert.PreReal

end
-- ==== Proof.Bridge.lean ====
/-
  The two programs return the same array.

  Both prepare the same patch array pat : [1936,64,400] from x (the shared head), multiply it position by position with the
  weights, lay the product out as O : [64,128,44,44] and normalise O per channel. The first program's product is the
  Pallas call's result, the per-position product `posProd pat ker`; the second's is one batched host product, and over the
  extended reals both are the sum over the 400 features of pat[p,b,f] · ker[p,f,c]. After that the two differ only in the
  variance: mean of squares minus squared mean against mean of squared deviations. These agree on real numbers, and
  O consists of real numbers when the inputs are finite: x divided by its sample norm plus a positive constant is real,
  the patches are entries of that, and a finite sum of products of reals is real. The precondition says exactly that the
  inputs are finite, and this is where it is used.
-/
import proofs.«122029_j87076166959109_2_alg».proof.Defs
import proofs.«122029_j87076166959109_2_alg».proof.Proof.Gen.KernelIdeal.Frame
import proofs.«122029_j87076166959109_2_alg».proof.Proof.Gen.ReferenceIdeal.Run
import proofs.«122029_j87076166959109_2_alg».proof.Proof.Gen.ReferenceIdeal.Read
import proofs.«122029_j87076166959109_2_alg».proof.Proof.Gen.Pre_finite_inputs
import proofs.«122029_j87076166959109_2_alg».proof.Proof.KTail
import proofs.«122029_j87076166959109_2_alg».proof.Proof.VarBridge
import proofs.«122029_j87076166959109_2_alg».proof.Proof.OutReal
import proofs.«122029_j87076166959109_2_alg».proof.Proof.PreReal
import proofs.«122029_j87076166959109_2_alg».proof.Proof.Moments

noncomputable section

namespace Cert.Proof.Bridge

open Idealize.ShloMosaic Idealize.ShloMosaic.TcCoe Idealize.SL.Sem Cert.RealArr
open Cert.ReferenceIdeal.Tail Cert.ReferenceIdeal.Read
open Cert.KernelIdeal.Blocks (posProd)

/-- The second program's batched host product of its patch stage with the weights is their per-position product: entry
    (p, b, c) is the sum over the features f of pat[p,b,f] · ker[p,f,c]. -/
theorem posProd_eq (x : FVec Ideal Cert.ReferenceIdeal.S64x16x48x48 .f32) (k : FVec Ideal Cert.ReferenceIdeal.S1936x400x128 .f32) :
    posProd (val_main_v45 (F := Ideal) x) k = val_main_v46 (F := Ideal) x k := by
  funext i
  rw [val_main_v46_apply]
  rfl

/-- On finite inputs the first program's expression — normalise with the variance as mean of squares minus squared mean —
    of the shared patch stage is the second program's result. -/
theorem value_eq (x : FVec Ideal Cert.ReferenceIdeal.S64x16x48x48 .f32) (k : FVec Ideal Cert.ReferenceIdeal.S1936x400x128 .f32)
    (g b : FVec Ideal Cert.ReferenceIdeal.S128 .f32) (hx : AllReal x) (hk : AllReal k) :
    normalise (layout (posProd (val_main_v45 (F := Ideal) x) k)) (chanMean (layout (posProd (val_main_v45 (F := Ideal) x) k)))
        (varOfSquares (layout (posProd (val_main_v45 (F := Ideal) x) k))) g b
      = val_main_v73 (F := Ideal) x k g b := by
  rw [posProd_eq, ← v48_eq, v73_eq, v52_eq, v59_eq,
    Cert.ReferenceIdeal.VarBridge.var_eq _ (Cert.OutReal.out_real x k Cert.Moments.ofBits_eps_pos hx hk)]

/-- THE VALUE CLAIM, given that the patch array the Pallas call finds is the second program's patch stage of the same x
    (the shared head). From memories agreeing on the arguments both programs end with the returned buffer at the second
    program's result function of the arguments, and the arguments unchanged. -/
theorem algebraic
    (hhead : ∀ (m : (ℓ : Loc Cert.KernelIdeal.nD Cert.KernelIdeal.τ Cert.KernelIdeal.sig) → Buf (Elt Ideal) ℓ) (c : Dev Cert.KernelIdeal.nD),
      (Cert.KernelIdeal.Gen.V m c Cert.KernelIdeal.main_v45 : Cert.KernelIdeal.S1936x64x400.Idx → EReal)
        = val_main_v45 (F := Ideal) (m ((c.tc : Thread Cert.KernelIdeal.nD Cert.KernelIdeal.τ).loc Cert.KernelIdeal.main_arg0))) :
    Cert.algebraic_KernelIdeal_ReferenceIdeal := by
  intro m ρ m' ρ' hpre hagree
  refine ⟨fun c => val_main_v73 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ?_) (Cert.KernelIdeal.Gen.run_main m ρ)
    obtain ⟨hx, hk⟩ := Cert.PreReal.real_of_pre _ _ _ _ (hpre c)
    refine ⟨?_, ?_, ?_, ?_, ?_⟩
    · refine ((h c).2 Cert.KernelIdeal.main_v73 (Pipeline.mem_restRefs_of Cert.KernelIdeal.main_v73 (by decide) (by decide))).trans ?_
      rw [Cert.KernelIdeal.KTail.result_eq, hhead]
      exact value_eq _ _ _ _ hx hk
    · exact ((h c).2 Cert.KernelIdeal.main_arg0 (Pipeline.mem_restRefs_of Cert.KernelIdeal.main_arg0 (by decide) (by decide))).trans
        (Cert.KernelIdeal.Gen.W_main_arg0 m (Cert.KernelIdeal.Gen.dats m) c)
    · exact ((h c).1 1).trans (((Cert.KernelIdeal.Gen.dats m 0 c).arrAt_in 1 rfl _).trans
        ((Cert.KernelIdeal.Gen.A_eq m c 1).trans (Cert.KernelIdeal.Gen.V_main_arg1 m c)))
    · exact ((h c).2 Cert.KernelIdeal.main_arg2 (Pipeline.mem_restRefs_of Cert.KernelIdeal.main_arg2 (by decide) (by decide))).trans
        (Cert.KernelIdeal.Gen.W_main_arg2 m (Cert.KernelIdeal.Gen.dats m) c)
    · exact ((h c).2 Cert.KernelIdeal.main_arg3 (Pipeline.mem_restRefs_of Cert.KernelIdeal.main_arg3 (by decide) (by decide))).trans
        (Cert.KernelIdeal.Gen.W_main_arg3 m (Cert.KernelIdeal.Gen.dats m) c)
  · refine (θ_run Cert.ReferenceIdeal.defs _ _).mono (fun _ h c => ⟨?_, (h c).2⟩) (Cert.ReferenceIdeal.Value.run (F := Ideal) m' ρ')
    rw [(h c).1, val_main_v73_eq, (hagree c).1, (hagree c).2.1, (hagree c).2.2.1, (hagree c).2.2.2]

end Cert.Proof.Bridge

end
-- ==== Proof.lean ====
/-
  A locally connected layer (per-position unshared weights on 5×5 patches of a sample-normalised input) followed by a
  training-mode batch normalisation and a ReLU, computed two ways:

  * the first program normalises x by its per-sample norm plus 1e-7, gathers the 44·44 = 1936 patches into
    pat : [1936,64,400], multiplies pat position by position with the weights ker : [1936,400,128] in ONE Pallas call whose
    grid of 44 points each handles 44 positions, lays the product out as O : [64,128,44,44], and normalises O per channel
    with the variance taken as E[O²] − E[O]²;
  * the second program does the same with one batched host product and the variance taken as E[(O − E[O])²].

  The claim's five parts:
  * the three frames: each program runs to the end without a fault and leaves its arguments unchanged. The two
    Pallas programs' frames are the generated frame certificates; the host program's frame is its generated run with the
    result dropped.
  * the idealised Pallas program is the printed program read at the extended reals, no operation rewritten, so there is
    nothing to preserve.
  * over the extended reals both programs return the same array. The head (x to pat) is the same composition of
    operations; the Pallas call's 44 blocks are blocks of one function, entry (p,b,c) = Σ_f pat[p,b,f]·ker[p,f,c], which is
    what the host product computes; and E[O²] − E[O]² = E[(O − E[O])²] holds because every entry of O is a real number
    when the inputs are finite — the one place the precondition is needed, since the identity fails at an infinite entry.
-/
import proofs.«122029_j87076166959109_2_alg».proof.Defs
import proofs.«122029_j87076166959109_2_alg».proof.Proof.Gen.Kernel
import proofs.«122029_j87076166959109_2_alg».proof.Proof.Gen.Kernel.Skeleton
import proofs.«122029_j87076166959109_2_alg».proof.Proof.Gen.Kernel.Launch
import proofs.«122029_j87076166959109_2_alg».proof.Proof.Gen.Kernel.Points
import proofs.«122029_j87076166959109_2_alg».proof.Proof.Gen.Kernel.Frame
import proofs.«122029_j87076166959109_2_alg».proof.Proof.Gen.KernelIdeal
import proofs.«122029_j87076166959109_2_alg».proof.Proof.Gen.KernelIdeal.Skeleton
import proofs.«122029_j87076166959109_2_alg».proof.Proof.Gen.KernelIdeal.Launch
import proofs.«122029_j87076166959109_2_alg».proof.Proof.Gen.KernelIdeal.Points
import proofs.«122029_j87076166959109_2_alg».proof.Proof.Gen.KernelIdeal.Frame
import proofs.«122029_j87076166959109_2_alg».proof.Proof.Gen.ReferenceIdeal
import proofs.«122029_j87076166959109_2_alg».proof.Proof.Gen.ReferenceIdeal.Run
import proofs.«122029_j87076166959109_2_alg».proof.Proof.Gen.ReferenceIdeal.Read
import proofs.«122029_j87076166959109_2_alg».proof.Proof.Gen.Pre_finite_inputs
import proofs.«122029_j87076166959109_2_alg».proof.Proof.HeadEq
import proofs.«122029_j87076166959109_2_alg».proof.Proof.Bridge
import Idealize.ShloMosaic.Adequacy
import Idealize.ShloMosaic.Init

noncomputable section

namespace Cert.Proof

open Idealize.ShloMosaic Idealize.SL.Sem Cert.Kernel

/-- The word-level Pallas program runs and keeps its arguments: the generated frame certificate. -/
theorem frame_kernel : Cert.frame_Kernel := fun m ρ _ => Cert.Kernel.Gen.frame m ρ

/-- So does the program read at the extended reals. -/
theorem frame_kernelIdeal : Cert.frame_KernelIdeal := fun m ρ _ => Cert.KernelIdeal.Gen.frame m ρ

/-- The host program runs and keeps its arguments: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten when the program was idealised: nothing to preserve. -/
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, Cert.Proof.Bridge.algebraic Cert.HeadEq.head_eq⟩

end Cert.Proof

end
